-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x128 : Shape := ⟨2, ![1600000, 128]⟩
abbrev S1x16 : Shape := ⟨2, ![1, 16]⟩
abbrev S272x128 : Shape := ⟨2, ![272, 128]⟩
abbrev S128 : Shape := ⟨1, ![128]⟩
abbrev S128x128 : Shape := ⟨2, ![128, 128]⟩
abbrev S2x1600000 : Shape := ⟨2, ![2, 1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S1x16 : S_.BroadcastsInDim S1x16 (![] : Fin 0 → Fin S1x16.rank)
  reducesTo_S1x16_S_d0_1 : S1x16.ReducesTo [0, 1] S_
  bcast_S_S272x128 : S_.BroadcastsInDim S272x128 (![] : Fin 0 → Fin S272x128.rank)
  reducesTo_S272x128_S_d0_1 : S272x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg11 : FVec F S128x128 .f32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg7 : FVec F S128x128 .f32) (main_arg8 : FVec F S128 .f32) (main_arg9 : FVec F S128 .f32) (main_arg10 : FVec F S128 .f32) (main_arg11 : FVec F S128x128 .f32) (main_arg12 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_v13 : IVec S_ 1) (main_v16 : IVec S272x128 1) : IVec S_ 1 :=
  let main_c_5 : IVec S_ 1 := constantI S_ 1 1#1
  let main_v17 : IVec S_ 1 := (fun x v => Host.reduce IntOp.andi x v reducesTo_S272x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S100000x128 .f32) (main_arg1 : FVec F S1600000x128 .f32) (main_arg2 : FVec F S1x16 .f32) (main_arg3 : FVec F S272x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : IVec S2x1600000 32) (main_arg14 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg1
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S1x16 .f32 := Host.absf main_arg2
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S272x128 .f32 := Host.absf main_arg3
  let main_cst_4 : FVec F S_ .f32 := constant S_ .f32 0x7F800000#32
  let main_v15 : FVec F S272x128 .f32 := broadcastInDim S272x128 ![] bcast_S_S272x128 main_cst_4
  let main_v16 : IVec S272x128 1 := cmpf .olt main_v14 main_v15
  fn_part1 (F := F) main_arg4 main_arg5 main_arg6 main_arg7 main_arg8 main_arg9 main_arg10 main_arg11 main_arg12 main_v13 main_v16
-- ==== Kernel.lean ====
abbrev S100000x128 : Shape := ⟨2, ![100000, 128]⟩
abbrev S1600000x128 : Shape := ⟨2, ![1600000, 128]⟩
abbrev S1x16 : Shape := ⟨2, ![1, 16]⟩
abbrev S272x128 : Shape := ⟨2, ![272, 128]⟩
abbrev S128 : Shape := ⟨1, ![128]⟩
abbrev S128x128 : Shape := ⟨2, ![128, 128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S16x128 : Shape := ⟨2, ![16, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 34
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S1600000x128, .f32⟩
  | .hbm, ⟨2, _⟩ => ⟨S1x16, .f32⟩
  | .hbm, ⟨3, _⟩ => ⟨S272x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S2x1600000, .i32⟩
  | .hbm, ⟨14, _⟩ => ⟨S100000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S100000x128, .f32⟩
  | .hbm, ⟨19, _⟩ => ⟨S1600000x1, .i32⟩
  | .hbm, ⟨20, _⟩ => ⟨S100000x128, .f32⟩
  | .hbm, ⟨21, _⟩ => ⟨S128x128, .f32⟩
  | .hbm, ⟨22, _⟩ => ⟨S128x128, .f32⟩
  | .hbm, ⟨23, _⟩ => ⟨S16x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S5000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x1600000_S1x1600000_1_0 : S2x1600000.Slices ![1, 0] S1x1600000
  shapeCasts_S1x1600000_S1600000 : S1x1600000.ShapeCasts S1600000
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  slices_S272x128_S128x128_0_0 : S272x128.Slices ![0, 0] S128x128
  slices_S272x128_S128x128_128_0 : S272x128.Slices ![128, 0] S128x128
  slices_S272x128_S16x128_256_0 : S272x128.Slices ![256, 0] S16x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S100000x128_S1600000x1_S1600000x128_1_0_0_1_wf : ScatterDims.WF S100000x128 S1600000x1 S1600000x128 [1] [0] [0] 1
  dot_S1x16_S16x128_S1x128_1_0_0_1_n_n_wf : DotDims.WF S1x16 S16x128 S1x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S5000x128.size a ≤ S100000x128.size a
  hwx0_13 : ∀ i : grid0.Coords, EltTy.bits .f32 = 32 ∨ (Rect.block (s := S100000x128) S5000x128.size (cc0_transform_13 i) (hinb0_13 i)).WholeWords (EltTy.packing .f32)

variable [Facts₀]

def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S1x16_S16x128_S1x128_1_0_0_1_n_n : DotDims S1x16 S16x128 S1x128 where
  lhsContracting := [1]
  rhsContracting := [0]
  lhsNonContracting := [0]
  rhsNonContracting := [1]
  lhsBatch := []
  rhsBatch := []
  wf := dot_S1x16_S16x128_S1x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v16) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v17) S5000x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000x128 : Shape := ⟨2, ![1600000, 128]⟩
abbrev S1x16 : Shape := ⟨2, ![1, 16]⟩
abbrev S272x128 : Shape := ⟨2, ![272, 128]⟩
abbrev S128 : Shape := ⟨1, ![128]⟩
abbrev S128x128 : Shape := ⟨2, ![128, 128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x16 : Shape := ⟨2, ![100000, 16]⟩
abbrev S100000x272 : Shape := ⟨2, ![100000, 272]⟩
abbrev S1x128 : Shape := ⟨2, ![1, 128]⟩
abbrev S100000x1 : Shape := ⟨2, ![100000, 1]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S1600000x128, .f32⟩
  | 2 => ⟨S1x16, .f32⟩
  | 3 => ⟨S272x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S2x1600000, .i32⟩
  | 14 => ⟨S100000, .i32⟩
  | 15 => ⟨S1x1600000, .i32⟩
  | 16 => ⟨S1600000, .i32⟩
  | 17 => ⟨S_, .f32⟩
  | 18 => ⟨S100000x128, .f32⟩
  | 19 => ⟨S1600000x1, .i32⟩
  | 20 => ⟨S100000x128, .f32⟩
  | 21 => ⟨S100000x16, .f32⟩
  | 22 => ⟨S100000x272, .f32⟩
  | 23 => ⟨S100000x128, .f32⟩
  | 24 => ⟨S1x128, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S_, .f32⟩
  | 31 => ⟨S100000, .f32⟩
  | 32 => ⟨S100000x1, .f32⟩
  | 33 => ⟨S_, .f32⟩
  | 34 => ⟨S100000x1, .f32⟩
  | 35 => ⟨S100000x1, .f32⟩
  | 36 => ⟨S_, .i32⟩
  | 37 => ⟨S_, .f32⟩
  | 38 => ⟨S100000, .f32⟩
  | 39 => ⟨S100000x1, .f32⟩
  | 40 => ⟨S_, .f32⟩
  | 41 => ⟨S100000x1, .f32⟩
  | 42 => ⟨S100000x1, .f32⟩
  | 43 => ⟨S100000x128, .f32⟩
  | 44 => ⟨S100000x128, .f32⟩
  | 45 => ⟨S100000x128, .f32⟩
  | 46 => ⟨S_, .f32⟩
  | 47 => ⟨S_, .f32⟩
  | 48 => ⟨S_, .f32⟩
  | 49 => ⟨S_, .f32⟩
  | 50 => ⟨S100000, .f32⟩
  | 51 => ⟨S100000x1, .f32⟩
  | 52 => ⟨S100000x1, .f32⟩
  | 53 => ⟨S100000x1, .f32⟩
  | 54 => ⟨S_, .f32⟩
  | 55 => ⟨S_, .i1⟩
  | 56 => ⟨S_, .f32⟩
  | 57 => ⟨S_, .f32⟩
  | 58 => ⟨S100000x1, .f32⟩
  | 59 => ⟨S100000x1, .f32⟩
  | 60 => ⟨S100000x128, .f32⟩
  | 61 => ⟨S100000x128, .f32⟩
  | 62 => ⟨S_, .f32⟩
  | 63 => ⟨S100000x1, .f32⟩
  | 64 => ⟨S100000x1, .f32⟩
  | 65 => ⟨S100000x1, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S_, .f32⟩
  | 82 => ⟨S100000, .f32⟩
  | 83 => ⟨S100000x1, .f32⟩
  | 84 => ⟨S_, .f32⟩
  | 85 => ⟨S100000x1, .f32⟩
  | 86 => ⟨S100000x1, .f32⟩
  | 87 => ⟨S_, .i32⟩
  | 88 => ⟨S_, .f32⟩
  | 89 => ⟨S100000, .f32⟩
  | 90 => ⟨S100000x1, .f32⟩
  | 91 => ⟨S_, .f32⟩
  | 92 => ⟨S100000x1, .f32⟩
  | 93 => ⟨S100000x1, .f32⟩
  | 94 => ⟨S100000x128, .f32⟩
  | 95 => ⟨S100000x128, .f32⟩
  | 96 => ⟨S100000x128, .f32⟩
  | 97 => ⟨S_, .f32⟩
  | 98 => ⟨S_, .f32⟩
  | 99 => ⟨S_, .f32⟩
  | 100 => ⟨S_, .f32⟩
  | 101 => ⟨S100000, .f32⟩
  | 102 => ⟨S100000x1, .f32⟩
  | 103 => ⟨S100000x1, .f32⟩
  | 104 => ⟨S100000x1, .f32⟩
  | 105 => ⟨S_, .f32⟩
  | 106 => ⟨S_, .i1⟩
  | 107 => ⟨S_, .f32⟩
  | 108 => ⟨S_, .f32⟩
  | 109 => ⟨S100000x1, .f32⟩
  | 110 => ⟨S100000x1, .f32⟩
  | 111 => ⟨S100000x128, .f32⟩
  | 112 => ⟨S100000x128, .f32⟩
  | 113 => ⟨S_, .f32⟩
  | 114 => ⟨S100000x1, .f32⟩
  | 115 => ⟨S100000x1, .f32⟩
  | 116 => ⟨S100000x1, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S100000x128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call0_cst : Ref sig .tc := ⟨.hbm, 27, rfl⟩
abbrev main_call0_v0 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_cst_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_cst_1 : Ref sig .tc := ⟨.hbm, 47, rfl⟩
abbrev main_call1_v8 : Ref sig .tc := ⟨.hbm, 48, rfl⟩
abbrev main_call1_cst_2 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_cst_3 : Ref sig .tc := ⟨.hbm, 54, rfl⟩
abbrev main_call1_v13 : Ref sig .tc := ⟨.hbm, 55, rfl⟩
abbrev main_call1_cst_4 : Ref sig .tc := ⟨.hbm, 56, rfl⟩
abbrev main_call1_call0_v0 : Ref sig .tc := ⟨.hbm, 57, rfl⟩
abbrev main_call1_call0_v1 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_2 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_call2_cst : Ref sig .tc := ⟨.hbm, 78, rfl⟩
abbrev main_call2_v0 : Ref sig .tc := ⟨.hbm, 79, rfl⟩
abbrev main_v34 : Ref sig .tc := ⟨.hbm, 80, rfl⟩
abbrev main_cst_3 : Ref sig .tc := ⟨.hbm, 81, rfl⟩
abbrev main_v35 : Ref sig .tc := ⟨.hbm, 82, rfl⟩
abbrev main_v36 : Ref sig .tc := ⟨.hbm, 83, rfl⟩
abbrev main_cst_4 : Ref sig .tc := ⟨.hbm, 84, rfl⟩
abbrev main_v37 : Ref sig .tc := ⟨.hbm, 85, rfl⟩
abbrev main_v38 : Ref sig .tc := ⟨.hbm, 86, rfl⟩
abbrev main_c_5 : Ref sig .tc := ⟨.hbm, 87, rfl⟩
abbrev main_call3_cst : Ref sig .tc := ⟨.hbm, 88, rfl⟩
abbrev main_call3_v0 : Ref sig .tc := ⟨.hbm, 89, rfl⟩
abbrev main_call3_v1 : Ref sig .tc := ⟨.hbm, 90, rfl⟩
abbrev main_call3_cst_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_v6 : Ref sig .tc := ⟨.hbm, 96, rfl⟩
abbrev main_call3_v7 : Ref sig .tc := ⟨.hbm, 97, rfl⟩
abbrev main_call3_cst_1 : Ref sig .tc := ⟨.hbm, 98, rfl⟩
abbrev main_call3_v8 : Ref sig .tc := ⟨.hbm, 99, rfl⟩
abbrev main_call3_cst_2 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_v12 : Ref sig .tc := ⟨.hbm, 104, rfl⟩
abbrev main_call3_cst_3 : Ref sig .tc := ⟨.hbm, 105, rfl⟩
abbrev main_call3_v13 : Ref sig .tc := ⟨.hbm, 106, rfl⟩
abbrev main_call3_cst_4 : Ref sig .tc := ⟨.hbm, 107, rfl⟩
abbrev main_call3_call0_v0 : Ref sig .tc := ⟨.hbm, 108, rfl⟩
abbrev main_call3_call0_v1 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_cst_6 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  bcast_S1x16_S100000x16_0_1 : S1x16.BroadcastsInDim S100000x16 (![0, 1] : Fin 2 → Fin S100000x16.rank)
  concatenates_S100000x128_S100000x128_S100000x16_S100000x272_d1 : Shape.Concatenates [S100000x128, S100000x128, S100000x16] S100000x272 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  scatter_S100000x128_S1600000x1_S1600000x128_1_0_0_1_wf : ScatterDims.WF S100000x128 S1600000x1 S1600000x128 [1] [0] [0] 1
  dot_S100000x272_S272x128_S100000x128_1_0_0_1_n_n_wf : DotDims.WF S100000x272 S272x128 S100000x128 [1] [0] [0] [1] [] []
  dot_S100000x128_S128x128_S100000x128_1_0_0_1_n_n_wf : DotDims.WF S100000x128 S128x128 S100000x128 [1] [0] [0] [1] [] []

variable [Facts₀]

def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x272_S272x128_S100000x128_1_0_0_1_n_n : DotDims S100000x272 S272x128 S100000x128 where
  lhsContracting := [1]
  rhsContracting := [0]
  lhsNonContracting := [0]
  rhsNonContracting := [1]
  lhsBatch := []
  rhsBatch := []
  wf := dot_S100000x272_S272x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The mathematics both programs compute, one node (one row) at a time, over the extended reals.

  A node's input row is the concatenation of its own 128 features, the 128 aggregated edge features and the 16
  global features. Three affine layers follow; after each of the first two comes `max · 0` and a normalisation of
  the row: subtract the row's mean, multiply by the reciprocal square root of (the row's variance plus a small
  constant), scale by `γ` and shift by `β`. Mean and variance are the row sum, and the sum of squared deviations,
  divided by 128.

  The first layer appears in two arrangements. One multiplies the whole 272-entry row into the 272 × 128 matrix and
  adds the bias. The other multiplies the first 128 entries into the matrix's first 128 rows, the next 128 into its
  next 128 rows, and adds a bias that already holds the global features' product with the last 16 rows. They are
  the same sum of 272 products regrouped, and addition on the extended reals is commutative and associative
  (no cancellation, no distribution is used), so the two agree at every extended-real input: `pre_regroup`.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The float words that occur: zero, 128 (the row length a mean divides by), and the normalisation's small constant.
    They are kept as words: both programs carry the same ones. -/
abbrev w0 : EReal := Ideal.ofBits .f32 0x00000000#32
abbrev w128 : EReal := Ideal.ofBits .f32 0x43000000#32
abbrev wEps : EReal := Ideal.ofBits .f32 0x3727C5AC#32

/-- An affine layer on a row: `(v · W) + b`. -/
def lin {K : ℕ} (v : Fin K → EReal) (W : Fin K → Fin 128 → EReal) (b : Fin 128 → EReal) : Fin 128 → EReal :=
  fun j => (∑ k : Fin K, v k * W k j) + b j

/-- `max · 0`, entry by entry. -/
def relu (v : Fin 128 → EReal) : Fin 128 → EReal := fun j => max (v j) w0

/-- The row's mean: its sum over 128. -/
def mean (v : Fin 128 → EReal) : EReal := Ideal.div (∑ q : Fin 128, v q) w128

/-- The row's variance: the mean of the squared deviations from the mean. -/
def var (v : Fin 128 → EReal) : EReal :=
  Ideal.div (∑ q : Fin 128, (v q - mean v) * (v q - mean v)) w128

/-- The normalised row, scaled and shifted. -/
def norm (v g be : Fin 128 → EReal) : Fin 128 → EReal :=
  fun j => (v j - mean v) * Ideal.rsqrt (var v + wEps) * g j + be j

/-- Everything after the first layer's affine part: from its value `h` to the output row. -/
def tail (h g1 be1 : Fin 128 → EReal) (W2 : Fin 128 → Fin 128 → EReal) (b2 g2 be2 : Fin 128 → EReal)
    (W3 : Fin 128 → Fin 128 → EReal) (b3 : Fin 128 → EReal) : Fin 128 → EReal :=
  lin (norm (relu (lin (norm (relu h) g1 be1) W2 b2)) g2 be2) W3 b3

/-- The first layer, split: own features into the first block of rows, aggregated features into the second, and a bias
    `b'` that may already hold more. -/
def preSplit (x a : Fin 128 → EReal) (Wx Wa : Fin 128 → Fin 128 → EReal) (b' : Fin 128 → EReal) : Fin 128 → EReal :=
  fun j => ((∑ k : Fin 128, x k * Wx k j) + (∑ k : Fin 128, a k * Wa k j)) + b' j

/-- The concatenated row: own features, aggregated features, global features. -/
def cat (x a : Fin 128 → EReal) (u : Fin 16 → EReal) : Fin 272 → EReal := fun k =>
  if h : k.val < 128 then x ⟨k.val, h⟩
  else if h2 : k.val < 256 then a ⟨k.val - 128, by omega⟩
  else u ⟨k.val - 256, by omega⟩

/-- The first layer, whole: the concatenated row into the whole matrix, plus the bias. -/
def preWhole (x a : Fin 128 → EReal) (u : Fin 16 → EReal) (W1 : Fin 272 → Fin 128 → EReal) (b1 : Fin 128 → EReal) :
    Fin 128 → EReal :=
  fun j => (∑ k : Fin 272, cat x a u k * W1 k j) + b1 j

/-- A sum over 272 terms is the sum of its first 128, its next 128 and its last 16. -/
theorem sum_272 (f : Fin 272 → EReal) :
    ∑ k : Fin 272, f k
      = (∑ k : Fin 128, f ⟨0 + k.val, by omega⟩) + (∑ k : Fin 128, f ⟨128 + k.val, by omega⟩)
        + ∑ k : Fin 16, f ⟨256 + k.val, by omega⟩ := by
  have h1 : ∑ k : Fin 272, f k
      = ∑ k : Fin 256, f (Fin.castAdd 16 k) + ∑ k : Fin 16, f (Fin.natAdd 256 k) :=
    Fin.sum_univ_add (M := EReal) (a := 256) (b := 16) f
  have h2 : ∑ k : Fin 256, f (Fin.castAdd 16 k)
      = ∑ k : Fin 128, f (Fin.castAdd 16 (Fin.castAdd 128 k)) + ∑ k : Fin 128, f (Fin.castAdd 16 (Fin.natAdd 128 k)) :=
    Fin.sum_univ_add (M := EReal) (a := 128) (b := 128) fun k => f (Fin.castAdd 16 k)
  rw [h1, h2]
  refine congrArg₂ (· + ·) (congrArg₂ (· + ·) ?_ ?_) ?_
  · exact Finset.sum_congr rfl fun k _ => congrArg f (Fin.ext (Nat.zero_add _).symm)
  · exact Finset.sum_congr rfl fun k _ => congrArg f (Fin.ext rfl)
  · exact Finset.sum_congr rfl fun k _ => congrArg f (Fin.ext rfl)

/-- The two arrangements of the first layer agree, at every extended-real input: the same 272 products, regrouped. -/
theorem pre_regroup (x a : Fin 128 → EReal) (u : Fin 16 → EReal) (W1 : Fin 272 → Fin 128 → EReal) (b1 : Fin 128 → EReal) :
    preSplit x a (fun k j => W1 ⟨0 + k.val, by omega⟩ j) (fun k j => W1 ⟨128 + k.val, by omega⟩ j)
        (fun j => b1 j + ∑ k : Fin 16, u k * W1 ⟨256 + k.val, by omega⟩ j)
      = preWhole x a u W1 b1 := by
  funext j
  unfold preSplit preWhole
  rw [sum_272 fun k => cat x a u k * W1 k j]
  have e0 : ∀ k : Fin 128, cat x a u ⟨0 + k.val, by omega⟩ = x k := fun k => by
    unfold cat
    have hk : (0 + k.val) < 128 := by omega
    rw [dif_pos hk]
    exact congrArg x (Fin.ext (Nat.zero_add _))
  have e1 : ∀ k : Fin 128, cat x a u ⟨128 + k.val, by omega⟩ = a k := fun k => by
    unfold cat
    have hk : ¬ (128 + k.val) < 128 := by omega
    have hk2 : (128 + k.val) < 256 := by omega
    rw [dif_neg hk, dif_pos hk2]
    exact congrArg a (Fin.ext (by show 128 + k.val - 128 = k.val; omega))
  have e2 : ∀ k : Fin 16, cat x a u ⟨256 + k.val, by omega⟩ = u k := fun k => by
    unfold cat
    have hk : ¬ (256 + k.val) < 128 := by omega
    have hk2 : ¬ (256 + k.val) < 256 := by omega
    rw [dif_neg hk, dif_neg hk2]
    exact congrArg u (Fin.ext (by show 256 + k.val - 256 = k.val; omega))
  simp only [e0, e1, e2]
  abel

/-! ## The output array -/

/-- The output array, node by node: row `i 0` of the inputs through the whole first layer and the rest. `agg` is the
    aggregated edge features, whatever they are: both programs form them by the same sum over incoming edges. -/
def out (x agg : (⟨2, ![100000, 128]⟩ : Shape).Idx → EReal) (u : (⟨2, ![1, 16]⟩ : Shape).Idx → EReal)
    (W1 : (⟨2, ![272, 128]⟩ : Shape).Idx → EReal) (b1 g1 be1 : (⟨1, ![128]⟩ : Shape).Idx → EReal)
    (W2 : (⟨2, ![128, 128]⟩ : Shape).Idx → EReal) (b2 g2 be2 : (⟨1, ![128]⟩ : Shape).Idx → EReal)
    (W3 : (⟨2, ![128, 128]⟩ : Shape).Idx → EReal) (b3 : (⟨1, ![128]⟩ : Shape).Idx → EReal) :
    (⟨2, ![100000, 128]⟩ : Shape).Idx → EReal := fun i =>
  tail (preWhole (fun k => x (ix2 (i 0) k)) (fun k => agg (ix2 (i 0) k)) (fun k => u (ix2 (0 : Fin 1) k))
        (fun k j => W1 (ix2 k j)) (fun j => b1 (ix1 j)))
    (fun j => g1 (ix1 j)) (fun j => be1 (ix1 j)) (fun k j => W2 (ix2 k j)) (fun j => b2 (ix1 j))
    (fun j => g2 (ix1 j)) (fun j => be2 (ix1 j)) (fun k j => W3 (ix2 k j)) (fun j => b3 (ix1 j)) (i 1)

end Cert.Spec

end
-- ==== Proof.KLayout.lean ====
/-
  The kernel body's operations that are not entry-by-entry, each read at one entry of a block of 5000 rows:
  a product of a [5000,128] block with a [128,128] matrix into a zero accumulator is the sum of 128 products; a sum
  along a row's 128 lanes is that row's sum; a column of 5000 row values, written [5000,1], holds row p's value at
  (p, 0), and spreads it along the row when broadcast; a single row [1,128] broadcast over the block repeats at
  every row.
-/
import proofs.«113741_j19851338842522_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KLayout

open Cert.KernelIdeal Cert.KernelIdeal.Gen Idealize.ShloMosaic Idealize.ShloMosaic.ValueIdx

/-! ## The matrix product -/

abbrev D := dot_S5000x128_S128x128_S5000x128_1_0_0_1_n_n

theorem lhs_row (i : S5000x128.Idx) (c : D.contr.Idx) : (D.lhsIdx i c 0).val = (i 0).val := by
  unfold DotDims.lhsIdx
  rw [dif_neg (show ¬(0 : Fin S5000x128.rank) ∈ D.lhsBatch by decide),
    dif_pos (show (0 : Fin S5000x128.rank) ∈ D.lhsNonContracting by decide)]
  rfl

theorem lhs_col (i : S5000x128.Idx) (c : D.contr.Idx) : (D.lhsIdx i c 1).val = (c ⟨0, by decide⟩).val :=
  D.lhsIdx_val_of_single rfl i c

theorem rhs_row (i : S5000x128.Idx) (c : D.contr.Idx) : (D.rhsIdx i c 0).val = (c ⟨0, by decide⟩).val :=
  D.rhsIdx_val_of_single rfl i c

theorem rhs_col (i : S5000x128.Idx) (c : D.contr.Idx) : (D.rhsIdx i c 1).val = (i 1).val := by
  unfold DotDims.rhsIdx
  rw [dif_neg (show ¬(1 : Fin S128x128.rank) ∈ D.rhsBatch by decide),
    dif_pos (show (1 : Fin S128x128.rank) ∈ D.rhsNonContracting by decide)]
  rfl

/-- Entry (p, q) of a block times a matrix, accumulated from zero: the sum over k of entry (p, k) times entry (k, q). -/
theorem matmul_at {φ₁ φ₂ : FTy} (a : FVec Ideal S5000x128 φ₁) (b : FVec Ideal S128x128 φ₂) (p : Fin 5000) (q : Fin 128) :
    matmul D none a b (constant S5000x128 .f32 0x00000000#32) (ix2 p q) = ∑ k : Fin 128, a (ix2 p k) * b (ix2 k q) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun ax => Fin.ext (by
    match ax with
    | ⟨0, _⟩ => exact lhs_row _ _
    | ⟨1, _⟩ => exact (lhs_col _ _).trans hk)
  have er : D.rhsIdx (ix2 p q) ((contrEquiv1 D 128 rfl rfl).symm k) = ix2 k q := funext fun ax => Fin.ext (by
    match ax with
    | ⟨0, _⟩ => exact (rhs_row _ _).trans hk
    | ⟨1, _⟩ => exact rhs_col _ _)
  rw [el, er]

/-! ## The lane sum -/

/-- The sum along the lanes of row p. -/
theorem lane_sum (src : FVec Ideal S5000x128 .f32) (p : Fin 5000) :
    multiReduction .add [1] S5000 src 0x00000000#32 reduces_S5000x128_S5000 (.inl rfl) rfl (ix1 p)
      = ∑ q : Fin 128, src (ix2 p q) := by
  refine (Ideal.multiReduction_add_single src 0x00000000#32 reduces_S5000x128_S5000 (.inl rfl) rfl (ix1 p)).trans ?_
  refine Finset.sum_congr rfl fun q _ => congrArg src (funext fun ax => Fin.ext (by
    match ax with
    | ⟨0, _⟩ => rfl
    | ⟨1, _⟩ => rfl))

/-! ## Columns of row values -/

/-- 5000 row values written as a [5000, 1] column: row p's value sits at (p, 0). -/
theorem column_at {α : Type} (v : S5000.Idx → α) (p : Fin 5000) (z : Fin 1) :
    shapeCast S5000x1 v shapeCasts_S5000_S5000x1 (ix2 p z) = v (ix1 p) :=
  shapeCast_apply v shapeCasts_S5000_S5000x1 _ _ (by
    have hz : z.val = 0 := by omega
    rw [Shape.rowMajor_val_two, Shape.rowMajor_val_one]
    show p.val = p.val * 1 + z.val
    rw [hz, Nat.mul_one, Nat.add_zero])

/-- A [5000, 1] column broadcast along the rows: entry (p, q) is the column's value for row p. -/
theorem column_bcast_at {α : Type} (v : S5000x1.Idx → α) (p : Fin 5000) (q : Fin 128) :
    broadcastTo S5000x128 v broadcasts_S5000x1_S5000x128 (ix2 p q) = v (ix2 p (0 : Fin 1)) := by
  refine broadcastTo_apply v broadcasts_S5000x1_S5000x128 (ix2 p q) (ix2 p (0 : Fin 1)) fun ax => ?_
  match ax with
  | ⟨0, _⟩ =>
    show p.val = if (5000 : ℕ) = 1 then 0 else p.val
    rw [if_neg (by decide)]
  | ⟨1, _⟩ => rfl

/-- One row [1, 128] broadcast over the block: entry (p, q) is the row's entry q. -/
theorem row_bcast_at {α : Type} (v : S1x128.Idx → α) (p : Fin 5000) (q : Fin 128) :
    broadcastTo S5000x128 v broadcasts_S1x128_S5000x128 (ix2 p q) = v (ix2 (0 : Fin 1) q) :=
  broadcastTo_1b_ab_apply v broadcasts_S1x128_S5000x128 p q

end Cert.KernelIdeal.KLayout

end
-- ==== Proof.KPay.lean ====
/-
  The kernel body's value on one block of 5000 rows, read at entry (p, q): it is the row function of the
  specification applied to row p of the block's two row inputs, the weight matrices and the bias and scale rows.

  The body is cut into the stages the mathematics has — an affine layer, `max · 0`, the column of row means, the
  column of row variances, the normalised block, its scale and shift — each stated on a whole block and read at an
  entry; the body is their composition, by unfolding.
-/
import proofs.«113741_j19851338842522_1_alg».proof.Proof.Spec
import proofs.«113741_j19851338842522_1_alg».proof.Proof.KLayout

noncomputable section

namespace Cert.KernelIdeal.KPay

open Cert.KernelIdeal Cert.KernelIdeal.Gen Cert.KernelIdeal.KLayout Idealize.ShloMosaic Idealize.ShloMosaic.ValueIdx

/-! ## Rows, matrices and single rows of a block's operands -/

/-- Row p of a block. -/
abbrev row (x : S5000x128.Idx → EReal) (p : Fin 5000) : Fin 128 → EReal := fun k => x (ix2 p k)
/-- A [128, 128] operand as a matrix. -/
abbrev mat (w : S128x128.Idx → EReal) : Fin 128 → Fin 128 → EReal := fun k j => w (ix2 k j)
/-- A [1, 128] operand as a row. -/
abbrev vec (v : S1x128.Idx → EReal) : Fin 128 → EReal := fun j => v (ix2 (0 : Fin 1) j)

/-! ## The stages on a block -/

/-- A block times a matrix plus a row: the affine layer on every row. -/
def affBlk (y : FVec Ideal S5000x128 .f32) (w : FVec Ideal S128x128 .f32) (b : FVec Ideal S1x128 .f32) :
    FVec Ideal S5000x128 .f32 :=
  addf (matmul D none (truncf .bf16 y bitsLt_bf16_f32) (truncf .bf16 w bitsLt_bf16_f32) (constant S5000x128 .f32 0x00000000#32))
    (broadcastTo S5000x128 b broadcasts_S1x128_S5000x128)

/-- `max · 0` on a block. -/
def reluBlk (v : FVec Ideal S5000x128 .f32) : FVec Ideal S5000x128 .f32 :=
  maximumf v (broadcast S5000x128 (Scalar.ofBits .f32 0x00000000#32))

/-- The column of row means. -/
def meanCol (v : FVec Ideal S5000x128 .f32) : FVec Ideal S5000x1 .f32 :=
  divf (shapeCast S5000x1 (multiReduction .add [1] S5000 v 0x00000000#32 reduces_S5000x128_S5000 (.inl rfl) rfl) shapeCasts_S5000_S5000x1)
    (broadcast S5000x1 (Scalar.ofBits .f32 0x43000000#32))

/-- The block minus its row means. -/
def devBlk (v : FVec Ideal S5000x128 .f32) : FVec Ideal S5000x128 .f32 :=
  subf v (broadcastTo S5000x128 (meanCol v) broadcasts_S5000x1_S5000x128)

/-- The column of row variances. -/
def varCol (v : FVec Ideal S5000x128 .f32) : FVec Ideal S5000x1 .f32 :=
  divf (shapeCast S5000x1 (multiReduction .add [1] S5000 (mulf (devBlk v) (devBlk v)) 0x00000000#32 reduces_S5000x128_S5000 (.inl rfl) rfl) shapeCasts_S5000_S5000x1)
    (broadcast S5000x1 (Scalar.ofBits .f32 0x43000000#32))

/-- The normalised block: deviations times the reciprocal square root of (variance plus the small constant). -/
def coreBlk (v : FVec Ideal S5000x128 .f32) : FVec Ideal S5000x128 .f32 :=
  mulf (devBlk v) (broadcastTo S5000x128 (rsqrt (addf (varCol v) (broadcast S5000x1 (Scalar.ofBits .f32 0x3727C5AC#32)))) broadcasts_S5000x1_S5000x128)

/-- Scale by one row, shift by another. -/
def scaleBlk (c : FVec Ideal S5000x128 .f32) (g be : FVec Ideal S1x128 .f32) : FVec Ideal S5000x128 .f32 :=
  addf (mulf c (broadcastTo S5000x128 g broadcasts_S1x128_S5000x128)) (broadcastTo S5000x128 be broadcasts_S1x128_S5000x128)

/-- The first layer's affine part on a block, in the body's arrangement: two products and a row. -/
def preBlk (x0 x1 : FVec Ideal S5000x128 .f32) (x2 x3 : FVec Ideal S128x128 .f32) (x4 : FVec Ideal S1x128 .f32) :
    FVec Ideal S5000x128 .f32 :=
  addf (addf (matmul D none (truncf .bf16 x0 bitsLt_bf16_f32) (truncf .bf16 x2 bitsLt_bf16_f32) (constant S5000x128 .f32 0x00000000#32))
      (matmul D none (truncf .bf16 x1 bitsLt_bf16_f32) (truncf .bf16 x3 bitsLt_bf16_f32) (constant S5000x128 .f32 0x00000000#32)))
    (broadcastTo S5000x128 x4 broadcasts_S1x128_S5000x128)

/-! ## Each stage at an entry -/

theorem affBlk_at (y : FVec Ideal S5000x128 .f32) (w : FVec Ideal S128x128 .f32) (b : FVec Ideal S1x128 .f32)
    (p : Fin 5000) (q : Fin 128) : affBlk y w b (ix2 p q) = Spec.lin (row y p) (mat w) (vec b) q := by
  unfold affBlk Spec.lin
  rw [addf_apply, matmul_at, row_bcast_at]
  rfl

theorem preBlk_at (x0 x1 : FVec Ideal S5000x128 .f32) (x2 x3 : FVec Ideal S128x128 .f32) (x4 : FVec Ideal S1x128 .f32)
    (p : Fin 5000) (q : Fin 128) :
    preBlk x0 x1 x2 x3 x4 (ix2 p q) = Spec.preSplit (row x0 p) (row x1 p) (mat x2) (mat x3) (vec x4) q := by
  unfold preBlk Spec.preSplit
  rw [addf_apply, addf_apply, matmul_at, matmul_at, row_bcast_at]
  rfl

theorem reluBlk_row (v : FVec Ideal S5000x128 .f32) (p : Fin 5000) : row (reluBlk v) p = Spec.relu (row v p) := rfl

theorem meanCol_at (v : FVec Ideal S5000x128 .f32) (p : Fin 5000) (z : Fin 1) :
    meanCol v (ix2 p z) = Spec.mean (row v p) := by
  unfold meanCol Spec.mean
  rw [divf_apply, column_at, lane_sum]
  rfl

theorem devBlk_at (v : FVec Ideal S5000x128 .f32) (p : Fin 5000) (q : Fin 128) :
    devBlk v (ix2 p q) = v (ix2 p q) - Spec.mean (row v p) := by
  unfold devBlk
  rw [subf_apply, column_bcast_at, meanCol_at]

theorem varCol_at (v : FVec Ideal S5000x128 .f32) (p : Fin 5000) (z : Fin 1) :
    varCol v (ix2 p z) = Spec.var (row v p) := by
  unfold varCol Spec.var
  rw [divf_apply, column_at, lane_sum]
  simp only [mulf_apply, devBlk_at]
  rfl

theorem coreBlk_at (v : FVec Ideal S5000x128 .f32) (p : Fin 5000) (q : Fin 128) :
    coreBlk v (ix2 p q) = (v (ix2 p q) - Spec.mean (row v p)) * Ideal.rsqrt (Spec.var (row v p) + Spec.wEps) := by
  unfold coreBlk
  rw [mulf_apply, devBlk_at, column_bcast_at]
  show _ * Ideal.rsqrt (varCol v (ix2 p (0 : Fin 1)) + Spec.wEps) = _
  rw [varCol_at]

theorem normBlk_row (v : FVec Ideal S5000x128 .f32) (g be : FVec Ideal S1x128 .f32) (p : Fin 5000) :
    row (scaleBlk (coreBlk v) g be) p = Spec.norm (row v p) (vec g) (vec be) := by
  funext j
  show scaleBlk (coreBlk v) g be (ix2 p j) = _
  unfold scaleBlk Spec.norm
  rw [addf_apply, mulf_apply, row_bcast_at, row_bcast_at, coreBlk_at]

/-! ## The body is the composition of the stages -/

/-- The body's value on a block, from the thirteen input blocks. -/
def bodyBlk (x0 x1 : FVec Ideal S5000x128 .f32) (x2 x3 : FVec Ideal S128x128 .f32) (x4 x5 x6 : FVec Ideal S1x128 .f32)
    (x7 : FVec Ideal S128x128 .f32) (x8 x9 x10 : FVec Ideal S1x128 .f32) (x11 : FVec Ideal S128x128 .f32)
    (x12 : FVec Ideal S1x128 .f32) : FVec Ideal S5000x128 .f32 :=
  affBlk (scaleBlk (coreBlk (reluBlk (affBlk (scaleBlk (coreBlk (reluBlk (preBlk x0 x1 x2 x3 x4))) x5 x6) x7 x8))) x9 x10) x11 x12

/-- The stored payload, over the payloads it reads, is that composition. -/
theorem pay_eq (x0 x1 : FVec Ideal S5000x128 .f32) (x2 x3 : FVec Ideal S128x128 .f32) (x4 x5 x6 : FVec Ideal S1x128 .f32)
    (x7 : FVec Ideal S128x128 .f32) (x8 x9 x10 : FVec Ideal S1x128 .f32) (x11 : FVec Ideal S128x128 .f32)
    (x12 : FVec Ideal S1x128 .f32) :
    k0_pay1 (k0_pay8 x9) (k0_pay9 x10)
        (k0_pay10 (k0_pay2 x0 x1 x2 x3 x4) (k0_pay3 x5) (k0_pay4 x6) (k0_pay6 x0 x1 x2 x3 x4) (k0_pay7 x0 x1 x2 x3 x4) x7 x8)
        x11 x12
      = bodyBlk x0 x1 x2 x3 x4 x5 x6 x7 x8 x9 x10 x11 x12 := by
  unfold k0_pay1 k0_pay8 k0_pay9 k0_pay10 k0_pay3 k0_pay4 k0_pay6 k0_pay7 k0_pay5 k0_pay2
  simp only [shapeCast_self]
  rfl

/-- The body's value at entry (p, q) of a block: the specification's row function of row p. -/
theorem bodyBlk_at (x0 x1 : FVec Ideal S5000x128 .f32) (x2 x3 : FVec Ideal S128x128 .f32) (x4 x5 x6 : FVec Ideal S1x128 .f32)
    (x7 : FVec Ideal S128x128 .f32) (x8 x9 x10 : FVec Ideal S1x128 .f32) (x11 : FVec Ideal S128x128 .f32)
    (x12 : FVec Ideal S1x128 .f32) (p : Fin 5000) (q : Fin 128) :
    bodyBlk x0 x1 x2 x3 x4 x5 x6 x7 x8 x9 x10 x11 x12 (ix2 p q)
      = Spec.tail (Spec.preSplit (row x0 p) (row x1 p) (mat x2) (mat x3) (vec x4)) (vec x5) (vec x6) (mat x7) (vec x8)
          (vec x9) (vec x10) (mat x11) (vec x12) q := by
  unfold bodyBlk Spec.tail
  rw [affBlk_at, normBlk_row, reluBlk_row]
  have h1 : row (affBlk (scaleBlk (coreBlk (reluBlk (preBlk x0 x1 x2 x3 x4))) x5 x6) x7 x8) p
      = Spec.lin (Spec.norm (Spec.relu (Spec.preSplit (row x0 p) (row x1 p) (mat x2) (mat x3) (vec x4))) (vec x5) (vec x6))
          (mat x7) (vec x8) := by
    funext j
    show affBlk _ x7 x8 (ix2 p j) = _
    rw [affBlk_at, normBlk_row, reluBlk_row]
    have h0 : row (preBlk x0 x1 x2 x3 x4) p = Spec.preSplit (row x0 p) (row x1 p) (mat x2) (mat x3) (vec x4) :=
      funext fun k => preBlk_at x0 x1 x2 x3 x4 p k
    rw [h0]
  rw [h1]

end Cert.KernelIdeal.KPay

end
-- ==== Proof.KFacts.lean ====
/-
  The grid's 20 points and the operands' index maps, decided once: the two row inputs move with the output along
  the rows, every other operand stays at block (0, 0); every row block of the output is some point's. And the output
  array as ONE function of the arrays the region finds, row by row.
-/
import proofs.«113741_j19851338842522_1_alg».proof.Proof.Gen.KernelIdeal.Frame
import proofs.«113741_j19851338842522_1_alg».proof.Proof.KPay

set_option Elab.async false

noncomputable section

namespace Cert.KernelIdeal.KFacts

open Cert.KernelIdeal Cert.KernelIdeal.Gen Cert.KernelIdeal.KPay Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The output array over ANY operand arrays: at (r, q), the row function of row r of the two row operands, over the
    split first-layer weights and the other parameters. It is a function of the thirteen operand arrays, whatever they
    hold. -/
def arrOutOf (X A : S100000x128.Idx → EReal) (Wx Wa : S128x128.Idx → EReal) (b g1 be1 : S1x128.Idx → EReal)
    (W2 : S128x128.Idx → EReal) (b2 g2 be2 : S1x128.Idx → EReal) (W3 : S128x128.Idx → EReal) (b3 : S1x128.Idx → EReal) :
    S100000x128.Idx → EReal := fun i =>
  Spec.tail
    (Spec.preSplit (fun k => X (ix2 (i 0) k)) (fun k => A (ix2 (i 0) k))
      (fun k j => Wx (ix2 k j)) (fun k j => Wa (ix2 k j)) (fun j => b (ix2 (0 : Fin 1) j)))
    (fun j => g1 (ix2 (0 : Fin 1) j)) (fun j => be1 (ix2 (0 : Fin 1) j))
    (fun k j => W2 (ix2 k j)) (fun j => b2 (ix2 (0 : Fin 1) j))
    (fun j => g2 (ix2 (0 : Fin 1) j)) (fun j => be2 (ix2 (0 : Fin 1) j))
    (fun k j => W3 (ix2 k j)) (fun j => b3 (ix2 (0 : Fin 1) j)) (i 1)

theorem arrOutOf_at (X A : S100000x128.Idx → EReal) (Wx Wa : S128x128.Idx → EReal) (b g1 be1 : S1x128.Idx → EReal)
    (W2 : S128x128.Idx → EReal) (b2 g2 be2 : S1x128.Idx → EReal) (W3 : S128x128.Idx → EReal) (b3 : S1x128.Idx → EReal)
    (R : Fin 100000) (q : Fin 128) :
    arrOutOf X A Wx Wa b g1 be1 W2 b2 g2 be2 W3 b3 (ix2 R q)
      = Spec.tail
          (Spec.preSplit (fun k => X (ix2 R k)) (fun k => A (ix2 R k))
            (fun k j => Wx (ix2 k j)) (fun k j => Wa (ix2 k j)) (fun j => b (ix2 (0 : Fin 1) j)))
          (fun j => g1 (ix2 (0 : Fin 1) j)) (fun j => be1 (ix2 (0 : Fin 1) j))
          (fun k j => W2 (ix2 k j)) (fun j => b2 (ix2 (0 : Fin 1) j))
          (fun j => g2 (ix2 (0 : Fin 1) j)) (fun j => be2 (ix2 (0 : Fin 1) j))
          (fun k j => W3 (ix2 k j)) (fun j => b3 (ix2 (0 : Fin 1) j)) q := rfl

/-- The output array as one function of the arrays the region finds in its thirteen operands. -/
def arrOut (c : Dev nD) : S100000x128.Idx → EReal :=
  arrOutOf (V m c main_arg0) (V m c main_v4) (V m c main_v5) (V m c main_v6) (V m c main_v10) (V m c main_v11) (V m c main_v12)
    (V m c main_arg7) (V m c main_v13) (V m c main_v14) (V m c main_v15) (V m c main_arg11) (V m c main_v16)

/-- The printed index maps, decided over the 20 points: the two row inputs move with the output along the rows,
    every other operand stays at block (0, 0), and the output's row-block index is at most 19. -/
theorem idx_facts : ∀ t : Fin cfg0.N,
    win0_0.index t (0 : Fin 2) = win0_13.index t (0 : Fin 2) ∧ win0_0.index t (1 : Fin 2) = 0
    ∧ win0_1.index t (0 : Fin 2) = win0_13.index t (0 : Fin 2) ∧ win0_1.index t (1 : Fin 2) = 0
    ∧ win0_13.index t (1 : Fin 2) = 0 ∧ win0_13.index t (0 : Fin 2) ≤ 19
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-- Every row block is some point's. -/
theorem idx_onto : ∀ q0 : Fin 20, ∃ t : Fin cfg0.N, win0_13.index t = ![q0.val, 0] :=
  (by decide +kernel : ∀ q0 : Fin 20, ∃ t : Fin grid0.N, win0_13.index t = ![q0.val, 0])

end Cert.KernelIdeal.KFacts

end
-- ==== Proof.KReadA0.lean ====
/-
  Each operand's block at a grid point, read where the output's rows say: a block's coordinate on an axis is its
  block index times the block's extent plus the coordinate inside the block.
-/
import proofs.«113741_j19851338842522_1_alg».proof.Proof.KFacts

set_option Elab.async false

noncomputable section

namespace Cert.KernelIdeal.KReadA0

open Cert.KernelIdeal Cert.KernelIdeal.Gen Cert.KernelIdeal.KPay Cert.KernelIdeal.KFacts Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Row p of point t's block of operand 0 is row R of the array it is cut from. -/
theorem rowEq0 (c : Dev nD) (t : Fin cfg0.N) (p : Fin 5000) (R : Fin 100000)
    (hR : R.val = win0_13.index t (0 : Fin 2) * 5000 + p.val) :
    row (iblk m c 0 t) p = fun k => V m c main_arg0 (ix2 R k) := funext fun k => by
  obtain ⟨a0, a1, b0, b1, o1, o0, c20, c21, c30, c31, c40, c41, c50, c51, c60, c61, c70, c71, c80, c81, c90, c91,
    ca0, ca1, cb0, cb1, cc0, cc1⟩ := idx_facts t
  show V m c main_arg0 (((cfg0.win 0).blk t).view.emb (ix2 p k)) = _
  refine congrArg (V m c main_arg0) (funext fun a => Fin.ext ?_)
  match a with
  | ⟨0, _⟩ => show win0_0.index t (0 : Fin 2) * 5000 + 1 * p.val = R.val; omega
  | ⟨1, _⟩ => show win0_0.index t (1 : Fin 2) * 128 + 1 * k.val = k.val; omega

end Cert.KernelIdeal.KReadA0

end
-- ==== Proof.KReadA1.lean ====
/-
  Each operand's block at a grid point, read where the output's rows say: a block's coordinate on an axis is its
  block index times the block's extent plus the coordinate inside the block.
-/
import proofs.«113741_j19851338842522_1_alg».proof.Proof.KFacts

set_option Elab.async false

noncomputable section

namespace Cert.KernelIdeal.KReadA1

open Cert.KernelIdeal Cert.KernelIdeal.Gen Cert.KernelIdeal.KPay Cert.KernelIdeal.KFacts Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Row p of point t's block of operand 1, read out of ANY array of the operand's shape: it is row R of that array.
    A fact about indices only: it holds whatever the array holds. -/
theorem blkRow1 (A : S100000x128.Idx → EReal) (t : Fin cfg0.N) (p : Fin 5000) (k : Fin 128) (R : Fin 100000)
    (hR : R.val = win0_13.index t (0 : Fin 2) * 5000 + p.val) :
    ((cfg0.win 1).blk t).view.read (Elt Ideal) A (ix2 p k) = A (ix2 R k) := by
  obtain ⟨a0, a1, b0, b1, o1, o0, c20, c21, c30, c31, c40, c41, c50, c51, c60, c61, c70, c71, c80, c81, c90, c91,
    ca0, ca1, cb0, cb1, cc0, cc1⟩ := idx_facts t
  show A (((cfg0.win 1).blk t).view.emb (ix2 p k)) = _
  refine congrArg A (funext fun a => Fin.ext ?_)
  match a with
  | ⟨0, _⟩ => show win0_1.index t (0 : Fin 2) * 5000 + 1 * p.val = R.val; omega
  | ⟨1, _⟩ => show win0_1.index t (1 : Fin 2) * 128 + 1 * k.val = k.val; omega

/-- Row p of point t's block of the aggregated features is row R of the aggregated-features array. -/
theorem rowEq1 (c : Dev nD) (t : Fin cfg0.N) (p : Fin 5000) (R : Fin 100000)
    (hR : R.val = win0_13.index t (0 : Fin 2) * 5000 + p.val) :
    row (iblk m c 1 t) p = fun k => V m c main_v4 (ix2 R k) :=
  funext fun k => blkRow1 (V m c main_v4) t p k R hR

end Cert.KernelIdeal.KReadA1

end
-- ==== Proof.KReadA2.lean ====
/-
  Each operand's block at a grid point, read where the output's rows say: a block's coordinate on an axis is its
  block index times the block's extent plus the coordinate inside the block.
-/
import proofs.«113741_j19851338842522_1_alg».proof.Proof.KFacts

set_option Elab.async false

noncomputable section

namespace Cert.KernelIdeal.KReadA2

open Cert.KernelIdeal Cert.KernelIdeal.Gen Cert.KernelIdeal.KPay Cert.KernelIdeal.KFacts Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Entry (p, q) of point t's output block, read out of ANY array of the output's shape, is entry (R, q) of that
    array. A fact about indices only: it holds whatever the array holds. -/
theorem blkOut (A : S100000x128.Idx → EReal) (t : Fin cfg0.N) (p : Fin 5000) (q : Fin 128) (R : Fin 100000)
    (hR : R.val = win0_13.index t (0 : Fin 2) * 5000 + p.val) :
    ((cfg0.win 13).blk t).view.read (Elt Ideal) A (ix2 p q) = A (ix2 R q) := by
  obtain ⟨a0, a1, b0, b1, o1, o0, c20, c21, c30, c31, c40, c41, c50, c51, c60, c61, c70, c71, c80, c81, c90, c91,
    ca0, ca1, cb0, cb1, cc0, cc1⟩ := idx_facts t
  show A (((cfg0.win 13).blk t).view.emb (ix2 p q)) = _
  refine congrArg A (funext fun a => Fin.ext ?_)
  match a with
  | ⟨0, _⟩ => show win0_13.index t (0 : Fin 2) * 5000 + 1 * p.val = R.val; omega
  | ⟨1, _⟩ => show win0_13.index t (1 : Fin 2) * 128 + 1 * q.val = q.val; omega

/-- The output window's blocks tile its array, so what a point writes back is its buffer's whole contents, entry by entry. -/
theorem cut_apply (v : S5000x128.Idx → EReal) (t : Fin cfg0.N) (y : S5000x128.Idx) :
    (cfg0.win 13).cut (grid0.coords t) v y = v y := rfl

end Cert.KernelIdeal.KReadA2

end
-- ==== Proof.KReadB.lean ====
/-
  Each operand's block at a grid point, read where the output's rows say: a block's coordinate on an axis is its
  block index times the block's extent plus the coordinate inside the block.
-/
import proofs.«113741_j19851338842522_1_alg».proof.Proof.KFacts

set_option Elab.async false

noncomputable section

namespace Cert.KernelIdeal.KReadB

open Cert.KernelIdeal Cert.KernelIdeal.Gen Cert.KernelIdeal.KPay Cert.KernelIdeal.KFacts Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Operand 2's block at any point is its whole [128, 128] array. -/
theorem matEq2 (c : Dev nD) (t : Fin cfg0.N) :
    mat (iblk m c 2 t) = fun k j => V m c main_v5 (ix2 k j) := funext fun k => funext fun j => by
  obtain ⟨a0, a1, b0, b1, o1, o0, c20, c21, c30, c31, c40, c41, c50, c51, c60, c61, c70, c71, c80, c81, c90, c91,
    ca0, ca1, cb0, cb1, cc0, cc1⟩ := idx_facts t
  show V m c main_v5 (((cfg0.win 2).blk t).view.emb (ix2 k j)) = _
  refine congrArg (V m c main_v5) (funext fun a => Fin.ext ?_)
  match a with
  | ⟨0, _⟩ => show win0_2.index t (0 : Fin 2) * 128 + 1 * k.val = k.val; omega
  | ⟨1, _⟩ => show win0_2.index t (1 : Fin 2) * 128 + 1 * j.val = j.val; omega

/-- Operand 3's block at any point is its whole [128, 128] array. -/
theorem matEq3 (c : Dev nD) (t : Fin cfg0.N) :
    mat (iblk m c 3 t) = fun k j => V m c main_v6 (ix2 k j) := funext fun k => funext fun j => by
  obtain ⟨a0, a1, b0, b1, o1, o0, c20, c21, c30, c31, c40, c41, c50, c51, c60, c61, c70, c71, c80, c81, c90, c91,
    ca0, ca1, cb0, cb1, cc0, cc1⟩ := idx_facts t
  show V m c main_v6 (((cfg0.win 3).blk t).view.emb (ix2 k j)) = _
  refine congrArg (V m c main_v6) (funext fun a => Fin.ext ?_)
  match a with
  | ⟨0, _⟩ => show win0_3.index t (0 : Fin 2) * 128 + 1 * k.val = k.val; omega
  | ⟨1, _⟩ => show win0_3.index t (1 : Fin 2) * 128 + 1 * j.val = j.val; omega

/-- Operand 7's block at any point is its whole [128, 128] array. -/
theorem matEq7 (c : Dev nD) (t : Fin cfg0.N) :
    mat (iblk m c 7 t) = fun k j => V m c main_arg7 (ix2 k j) := funext fun k => funext fun j => by
  obtain ⟨a0, a1, b0, b1, o1, o0, c20, c21, c30, c31, c40, c41, c50, c51, c60, c61, c70, c71, c80, c81, c90, c91,
    ca0, ca1, cb0, cb1, cc0, cc1⟩ := idx_facts t
  show V m c main_arg7 (((cfg0.win 7).blk t).view.emb (ix2 k j)) = _
  refine congrArg (V m c main_arg7) (funext fun a => Fin.ext ?_)
  match a with
  | ⟨0, _⟩ => show win0_7.index t (0 : Fin 2) * 128 + 1 * k.val = k.val; omega
  | ⟨1, _⟩ => show win0_7.index t (1 : Fin 2) * 128 + 1 * j.val = j.val; omega

/-- Operand 11's block at any point is its whole [128, 128] array. -/
theorem matEq11 (c : Dev nD) (t : Fin cfg0.N) :
    mat (iblk m c 11 t) = fun k j => V m c main_arg11 (ix2 k j) := funext fun k => funext fun j => by
  obtain ⟨a0, a1, b0, b1, o1, o0, c20, c21, c30, c31, c40, c41, c50, c51, c60, c61, c70, c71, c80, c81, c90, c91,
    ca0, ca1, cb0, cb1, cc0, cc1⟩ := idx_facts t
  show V m c main_arg11 (((cfg0.win 11).blk t).view.emb (ix2 k j)) = _
  refine congrArg (V m c main_arg11) (funext fun a => Fin.ext ?_)
  match a with
  | ⟨0, _⟩ => show win0_11.index t (0 : Fin 2) * 128 + 1 * k.val = k.val; omega
  | ⟨1, _⟩ => show win0_11.index t (1 : Fin 2) * 128 + 1 * j.val = j.val; omega

end Cert.KernelIdeal.KReadB

end
-- ==== Proof.KReadC.lean ====
/-
  Each operand's block at a grid point, read where the output's rows say: a block's coordinate on an axis is its
  block index times the block's extent plus the coordinate inside the block.
-/
import proofs.«113741_j19851338842522_1_alg».proof.Proof.KFacts

set_option Elab.async false

noncomputable section

namespace Cert.KernelIdeal.KReadC

open Cert.KernelIdeal Cert.KernelIdeal.Gen Cert.KernelIdeal.KPay Cert.KernelIdeal.KFacts Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Operand 4's block at any point is its whole [1, 128] array. -/
theorem vecEq4 (c : Dev nD) (t : Fin cfg0.N) :
    vec (iblk m c 4 t) = fun j => V m c main_v10 (ix2 (0 : Fin 1) j) := funext fun j => by
  obtain ⟨a0, a1, b0, b1, o1, o0, c20, c21, c30, c31, c40, c41, c50, c51, c60, c61, c70, c71, c80, c81, c90, c91,
    ca0, ca1, cb0, cb1, cc0, cc1⟩ := idx_facts t
  show V m c main_v10 (((cfg0.win 4).blk t).view.emb (ix2 (0 : Fin 1) j)) = _
  refine congrArg (V m c main_v10) (funext fun a => Fin.ext ?_)
  match a with
  | ⟨0, _⟩ => show win0_4.index t (0 : Fin 2) * 1 + 1 * 0 = 0; omega
  | ⟨1, _⟩ => show win0_4.index t (1 : Fin 2) * 128 + 1 * j.val = j.val; omega

/-- Operand 5's block at any point is its whole [1, 128] array. -/
theorem vecEq5 (c : Dev nD) (t : Fin cfg0.N) :
    vec (iblk m c 5 t) = fun j => V m c main_v11 (ix2 (0 : Fin 1) j) := funext fun j => by
  obtain ⟨a0, a1, b0, b1, o1, o0, c20, c21, c30, c31, c40, c41, c50, c51, c60, c61, c70, c71, c80, c81, c90, c91,
    ca0, ca1, cb0, cb1, cc0, cc1⟩ := idx_facts t
  show V m c main_v11 (((cfg0.win 5).blk t).view.emb (ix2 (0 : Fin 1) j)) = _
  refine congrArg (V m c main_v11) (funext fun a => Fin.ext ?_)
  match a with
  | ⟨0, _⟩ => show win0_5.index t (0 : Fin 2) * 1 + 1 * 0 = 0; omega
  | ⟨1, _⟩ => show win0_5.index t (1 : Fin 2) * 128 + 1 * j.val = j.val; omega

/-- Operand 6's block at any point is its whole [1, 128] array. -/
theorem vecEq6 (c : Dev nD) (t : Fin cfg0.N) :
    vec (iblk m c 6 t) = fun j => V m c main_v12 (ix2 (0 : Fin 1) j) := funext fun j => by
  obtain ⟨a0, a1, b0, b1, o1, o0, c20, c21, c30, c31, c40, c41, c50, c51, c60, c61, c70, c71, c80, c81, c90, c91,
    ca0, ca1, cb0, cb1, cc0, cc1⟩ := idx_facts t
  show V m c main_v12 (((cfg0.win 6).blk t).view.emb (ix2 (0 : Fin 1) j)) = _
  refine congrArg (V m c main_v12) (funext fun a => Fin.ext ?_)
  match a with
  | ⟨0, _⟩ => show win0_6.index t (0 : Fin 2) * 1 + 1 * 0 = 0; omega
  | ⟨1, _⟩ => show win0_6.index t (1 : Fin 2) * 128 + 1 * j.val = j.val; omega

/-- Operand 8's block at any point is its whole [1, 128] array. -/
theorem vecEq8 (c : Dev nD) (t : Fin cfg0.N) :
    vec (iblk m c 8 t) = fun j => V m c main_v13 (ix2 (0 : Fin 1) j) := funext fun j => by
  obtain ⟨a0, a1, b0, b1, o1, o0, c20, c21, c30, c31, c40, c41, c50, c51, c60, c61, c70, c71, c80, c81, c90, c91,
    ca0, ca1, cb0, cb1, cc0, cc1⟩ := idx_facts t
  show V m c main_v13 (((cfg0.win 8).blk t).view.emb (ix2 (0 : Fin 1) j)) = _
  refine congrArg (V m c main_v13) (funext fun a => Fin.ext ?_)
  match a with
  | ⟨0, _⟩ => show win0_8.index t (0 : Fin 2) * 1 + 1 * 0 = 0; omega
  | ⟨1, _⟩ => show win0_8.index t (1 : Fin 2) * 128 + 1 * j.val = j.val; omega

end Cert.KernelIdeal.KReadC

end
-- ==== Proof.KReadD.lean ====
/-
  Each operand's block at a grid point, read where the output's rows say: a block's coordinate on an axis is its
  block index times the block's extent plus the coordinate inside the block.
-/
import proofs.«113741_j19851338842522_1_alg».proof.Proof.KFacts

set_option Elab.async false

noncomputable section

namespace Cert.KernelIdeal.KReadD

open Cert.KernelIdeal Cert.KernelIdeal.Gen Cert.KernelIdeal.KPay Cert.KernelIdeal.KFacts Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Operand 9's block at any point is its whole [1, 128] array. -/
theorem vecEq9 (c : Dev nD) (t : Fin cfg0.N) :
    vec (iblk m c 9 t) = fun j => V m c main_v14 (ix2 (0 : Fin 1) j) := funext fun j => by
  obtain ⟨a0, a1, b0, b1, o1, o0, c20, c21, c30, c31, c40, c41, c50, c51, c60, c61, c70, c71, c80, c81, c90, c91,
    ca0, ca1, cb0, cb1, cc0, cc1⟩ := idx_facts t
  show V m c main_v14 (((cfg0.win 9).blk t).view.emb (ix2 (0 : Fin 1) j)) = _
  refine congrArg (V m c main_v14) (funext fun a => Fin.ext ?_)
  match a with
  | ⟨0, _⟩ => show win0_9.index t (0 : Fin 2) * 1 + 1 * 0 = 0; omega
  | ⟨1, _⟩ => show win0_9.index t (1 : Fin 2) * 128 + 1 * j.val = j.val; omega

/-- Operand 10's block at any point is its whole [1, 128] array. -/
theorem vecEq10 (c : Dev nD) (t : Fin cfg0.N) :
    vec (iblk m c 10 t) = fun j => V m c main_v15 (ix2 (0 : Fin 1) j) := funext fun j => by
  obtain ⟨a0, a1, b0, b1, o1, o0, c20, c21, c30, c31, c40, c41, c50, c51, c60, c61, c70, c71, c80, c81, c90, c91,
    ca0, ca1, cb0, cb1, cc0, cc1⟩ := idx_facts t
  show V m c main_v15 (((cfg0.win 10).blk t).view.emb (ix2 (0 : Fin 1) j)) = _
  refine congrArg (V m c main_v15) (funext fun a => Fin.ext ?_)
  match a with
  | ⟨0, _⟩ => show win0_10.index t (0 : Fin 2) * 1 + 1 * 0 = 0; omega
  | ⟨1, _⟩ => show win0_10.index t (1 : Fin 2) * 128 + 1 * j.val = j.val; omega

/-- Operand 12's block at any point is its whole [1, 128] array. -/
theorem vecEq12 (c : Dev nD) (t : Fin cfg0.N) :
    vec (iblk m c 12 t) = fun j => V m c main_v16 (ix2 (0 : Fin 1) j) := funext fun j => by
  obtain ⟨a0, a1, b0, b1, o1, o0, c20, c21, c30, c31, c40, c41, c50, c51, c60, c61, c70, c71, c80, c81, c90, c91,
    ca0, ca1, cb0, cb1, cc0, cc1⟩ := idx_facts t
  show V m c main_v16 (((cfg0.win 12).blk t).view.emb (ix2 (0 : Fin 1) j)) = _
  refine congrArg (V m c main_v16) (funext fun a => Fin.ext ?_)
  match a with
  | ⟨0, _⟩ => show win0_12.index t (0 : Fin 2) * 1 + 1 * 0 = 0; omega
  | ⟨1, _⟩ => show win0_12.index t (1 : Fin 2) * 128 + 1 * j.val = j.val; omega

end Cert.KernelIdeal.KReadD

end
-- ==== Proof.KValue.lean ====
/-
  From blocks to the array. What grid point t writes back is block t of one whole-array function (the row function
  of the specification, row by row); every output row lies in the block of point (row / 5000); so after the run the
  output array is that function.
-/
import proofs.«113741_j19851338842522_1_alg».proof.Proof.Gen.KernelIdeal.Value
import proofs.«113741_j19851338842522_1_alg».proof.Proof.KReadA0
import proofs.«113741_j19851338842522_1_alg».proof.Proof.KReadA1
import proofs.«113741_j19851338842522_1_alg».proof.Proof.KReadA2
import proofs.«113741_j19851338842522_1_alg».proof.Proof.KReadB
import proofs.«113741_j19851338842522_1_alg».proof.Proof.KReadC
import proofs.«113741_j19851338842522_1_alg».proof.Proof.KReadD

set_option Elab.async false

noncomputable section

namespace Cert.KernelIdeal.KValue

open Cert.KernelIdeal Cert.KernelIdeal.Gen Cert.KernelIdeal.KPay Cert.KernelIdeal.KFacts Cert.KernelIdeal.KReadA0 Cert.KernelIdeal.KReadA1 Cert.KernelIdeal.KReadA2 Cert.KernelIdeal.KReadB Cert.KernelIdeal.KReadC Cert.KernelIdeal.KReadD Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

variable (ρ : Dev nD → PrngReg)

/-- What the body leaves in the output's buffer, from any thirteen input blocks: its one store covers the buffer, and
    the stored value is the composition of the stages. -/
theorem out_eq (x0 x1 : FVec Ideal S5000x128 .f32) (x2 x3 : FVec Ideal S128x128 .f32) (x4 x5 x6 : FVec Ideal S1x128 .f32)
    (x7 : FVec Ideal S128x128 .f32) (x8 x9 x10 : FVec Ideal S1x128 .f32) (x11 : FVec Ideal S128x128 .f32)
    (x12 : FVec Ideal S1x128 .f32) :
    out0_13 (F := Ideal) x0 x1 x2 x3 x4 x5 x6 x7 x8 x9 x10 x11 x12 = bodyBlk x0 x1 x2 x3 x4 x5 x6 x7 x8 x9 x10 x11 x12 := by
  unfold out0_13
  rw [View.canon_unit_zero hz]
  simp only [View.ld_unit_zero (S := S5000x128) hz, View.ld_unit_zero (S := S128x128) hz, View.ld_unit_zero (S := S1x128) hz]
  exact pay_eq x0 x1 x2 x3 x4 x5 x6 x7 x8 x9 x10 x11 x12

/-- The row function depends on its thirteen operands only through their values. -/
theorem row_congr {x x' a a' : Fin 128 → EReal} {wx wx' wa wa' : Fin 128 → Fin 128 → EReal} {b b' g1 g1' be1 be1' : Fin 128 → EReal}
    {w2 w2' : Fin 128 → Fin 128 → EReal} {b2 b2' g2 g2' be2 be2' : Fin 128 → EReal} {w3 w3' : Fin 128 → Fin 128 → EReal}
    {b3 b3' : Fin 128 → EReal}
    (e0 : x = x') (e1 : a = a') (e2 : wx = wx') (e3 : wa = wa') (e4 : b = b') (e5 : g1 = g1') (e6 : be1 = be1') (e7 : w2 = w2')
    (e8 : b2 = b2') (e9 : g2 = g2') (e10 : be2 = be2') (e11 : w3 = w3') (e12 : b3 = b3') (q : Fin 128) :
    Spec.tail (Spec.preSplit x a wx wa b) g1 be1 w2 b2 g2 be2 w3 b3 q
      = Spec.tail (Spec.preSplit x' a' wx' wa' b') g1' be1' w2' b2' g2' be2' w3' b3' q := by
  subst e0 e1 e2 e3 e4 e5 e6 e7 e8 e9 e10 e11 e12; rfl

set_option maxHeartbeats 1000000 in
/-- What point t writes back is block t of `arrOut`: the body's value on the point's blocks, read at each entry as
    the row function of the operands' rows, which are the arrays' rows where the output's row says. -/
theorem flushed_eq (c : Dev nD) (t : Fin cfg0.N) :
    (dats m 0 c).flushed 13 t = ((cfg0.win 13).blk t).view.read (Elt Ideal) (arrOut m c) := by
  refine (Cert.KernelIdeal.Value.flushed13 m c t).trans ?_
  refine (congrArg ((cfg0.win 13).cut (grid0.coords t))
    (out_eq (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t))).trans ?_
  funext y
  obtain ⟨p, q, rfl⟩ : ∃ (p : Fin 5000) (q : Fin 128), y = ix2 p q := ⟨y 0, y 1, eq_ix2 y⟩
  have hp : p.val < 5000 := p.isLt
  have hb : win0_13.index t (0 : Fin 2) ≤ 19 := (idx_facts t).2.2.2.2.2.1
  -- the row of the array that row p of point t's block is
  let R : Fin 100000 := ⟨win0_13.index t (0 : Fin 2) * 5000 + p.val, by omega⟩
  refine (cut_apply (bodyBlk (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t)) t (ix2 p q)).trans ?_
  refine (bodyBlk_at (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) p q).trans ?_
  refine (row_congr (rowEq0 m c t p R rfl) (rowEq1 m c t p R rfl) (matEq2 m c t) (matEq3 m c t) (vecEq4 m c t) (vecEq5 m c t)
    (vecEq6 m c t) (matEq7 m c t) (vecEq8 m c t) (vecEq9 m c t) (vecEq10 m c t) (matEq11 m c t) (vecEq12 m c t) q).trans ?_
  refine (arrOutOf_at (V m c main_arg0) (V m c main_v4) (V m c main_v5) (V m c main_v6) (V m c main_v10) (V m c main_v11) (V m c main_v12)
    (V m c main_arg7) (V m c main_v13) (V m c main_v14) (V m c main_v15) (V m c main_arg11) (V m c main_v16) R q).symm.trans ?_
  exact (blkOut (arrOut m c) t p q R rfl).symm

/-- An index of the array is in point t's block iff each coordinate is in the block's range on its axis. -/
theorem mem_blk (t : Fin cfg0.N) (i : S100000x128.Idx) :
    i ∈ ((cfg0.win 13).blk t).view.set ↔ ∀ a : Fin 2, win0_13.index t a * S5000x128.size a ≤ (i a).val ∧ (i a).val < win0_13.index t a * S5000x128.size a + S5000x128.size a := by
  show i ∈ ((View.whole main_v17).slice (win0_13.rect t)).set ↔ _
  rw [View.set_slice_whole, Rect.mem_set_unit]
  exact Iff.rfl

/-- Every output index is in some point's block: row r is point (r / 5000)'s. -/
theorem cover (i : S100000x128.Idx) :
    ∃ t : Fin cfg0.N, (cfg0.win 13).flush t = true ∧ i ∈ ((cfg0.win 13).blk t).view.set := by
  have hi0 : (i 0).val < 100000 := (i 0).isLt
  have hi1 : (i 1).val < 128 := (i 1).isLt
  obtain ⟨t, ht⟩ := idx_onto ⟨(i 0).val / 5000, by omega⟩
  have q0 : win0_13.index t (0 : Fin 2) = (i 0).val / 5000 := congrFun ht 0
  have q1 : win0_13.index t (1 : Fin 2) = 0 := congrFun ht 1
  refine ⟨t, flush0_13 t, ?_⟩
  rw [mem_blk]
  intro a
  match a with
  | ⟨0, _⟩ => show win0_13.index t (0 : Fin 2) * 5000 ≤ (i 0).val ∧ (i 0).val < win0_13.index t (0 : Fin 2) * 5000 + 5000; omega
  | ⟨1, _⟩ => show win0_13.index t (1 : Fin 2) * 128 ≤ (i 1).val ∧ (i 1).val < win0_13.index t (1 : Fin 2) * 128 + 128; omega

/-- The output array after the run. -/
theorem final (c : Dev nD) : (dats m 0 c).arrAt 13 cfg0.N = arrOut m c :=
  (dats m 0 c).arrAt_eq_of_cover 13 (arrOut m c) (fun t _ => flushed_eq m c t) cover

end Cert.KernelIdeal.KValue

end
-- ==== Proof.KHost.lean ====
/-
  What the host operations before the region leave in the operands the region reads, as functions of the argument
  arrays: the aggregated edge features (a sum over incoming edges: one function of the edge-index array and the edge
  features, of which nothing more is used); the three row blocks of the first weight matrix; the first bias plus the global
  features' product with the matrix's last 16 rows; and the remaining bias and scale vectors, each written as one
  row.
-/
import proofs.«113741_j19851338842522_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KHost

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The aggregated edge features: every edge's feature row added into the row of its destination node (row 1 of
    the edge-index array), from zero. -/
def aggOf (idx : S2x1600000.Idx → BitVec 32) (e : S1600000x128.Idx → EReal) : S100000x128.Idx → EReal :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0
      (shapeCast S1600000 (extractStridedSlice S1x1600000 ![1, 0] idx slices_S2x1600000_S1x1600000_1_0) shapeCasts_S1x1600000_S1600000))
    e

theorem V_agg (c : Dev nD) :
    (V m c main_v4 : S100000x128.Idx → EReal)
      = aggOf (m ((c : Thread nD τ).loc main_arg13)) (m ((c : Thread nD τ).loc main_arg1)) := by
  dsimp only [Gen.V, Gen.hostOps0]; after_results; rfl

/-! ## The first weight matrix's row blocks -/

theorem V_w1x (c : Dev nD) (k j : Fin 128) :
    V m c main_v5 (ix2 k j) = m ((c : Thread nD τ).loc main_arg3) (ix2 (⟨0 + k.val, by omega⟩ : Fin 272) j) := by
  have e : (V m c main_v5 : S128x128.Idx → EReal)
      = extractStridedSlice S128x128 ![0, 0] (m ((c : Thread nD τ).loc main_arg3)) slices_S272x128_S128x128_0_0 := by
    dsimp only [Gen.V, Gen.hostOps0]; after_results
  rw [e]
  exact slice2_axis0_eq 0 _ _ k j

theorem V_w1a (c : Dev nD) (k j : Fin 128) :
    V m c main_v6 (ix2 k j) = m ((c : Thread nD τ).loc main_arg3) (ix2 (⟨128 + k.val, by omega⟩ : Fin 272) j) := by
  have e : (V m c main_v6 : S128x128.Idx → EReal)
      = extractStridedSlice S128x128 ![128, 0] (m ((c : Thread nD τ).loc main_arg3)) slices_S272x128_S128x128_128_0 := by
    dsimp only [Gen.V, Gen.hostOps0]; after_results
  rw [e]
  exact slice2_axis0_eq 128 _ _ k j

/-! ## The global features' product with the last 16 rows -/

abbrev Du := dot_S1x16_S16x128_S1x128_1_0_0_1_n_n

theorem u_lhs_row (i : S1x128.Idx) (q : Du.contr.Idx) : (Du.lhsIdx i q 0).val = (i 0).val := by
  unfold DotDims.lhsIdx
  rw [dif_neg (show ¬(0 : Fin S1x16.rank) ∈ Du.lhsBatch by decide),
    dif_pos (show (0 : Fin S1x16.rank) ∈ Du.lhsNonContracting by decide)]
  rfl
theorem u_lhs_col (i : S1x128.Idx) (q : Du.contr.Idx) : (Du.lhsIdx i q 1).val = (q ⟨0, by decide⟩).val :=
  Du.lhsIdx_val_of_single rfl i q
theorem u_rhs_row (i : S1x128.Idx) (q : Du.contr.Idx) : (Du.rhsIdx i q 0).val = (q ⟨0, by decide⟩).val :=
  Du.rhsIdx_val_of_single rfl i q
theorem u_rhs_col (i : S1x128.Idx) (q : Du.contr.Idx) : (Du.rhsIdx i q 1).val = (i 1).val := by
  unfold DotDims.rhsIdx
  rw [dif_neg (show ¬(1 : Fin S16x128.rank) ∈ Du.rhsBatch by decide),
    dif_pos (show (1 : Fin S16x128.rank) ∈ Du.rhsNonContracting by decide)]
  rfl

/-- Entry (0, j) of the [1, 16] row times a [16, 128] matrix: the sum of 16 products. -/
theorem udot_at (l : FVec Ideal S1x16 .f32) (r : FVec Ideal S16x128 .f32) (j : Fin 128) :
    Host.dotGeneral (F := Ideal) Du none l r (ix2 (0 : Fin 1) j) = ∑ k : Fin 16, l (ix2 (0 : Fin 1) k) * r (ix2 k j) := by
  simp only [Host.dotGeneral]
  rw [Ideal.dotGeneral_apply, ← Equiv.sum_comp (contrEquiv1 Du 16 rfl rfl).symm]
  refine Finset.sum_congr rfl fun k _ => ?_
  have hk := contrEquiv1_symm_val Du 16 rfl rfl k
  have el : Du.lhsIdx (ix2 (0 : Fin 1) j) ((contrEquiv1 Du 16 rfl rfl).symm k) = ix2 (0 : Fin 1) k := funext fun ax => Fin.ext (by
    match ax with
    | ⟨0, _⟩ => exact u_lhs_row _ _
    | ⟨1, _⟩ => exact (u_lhs_col _ _).trans hk)
  have er : Du.rhsIdx (ix2 (0 : Fin 1) j) ((contrEquiv1 Du 16 rfl rfl).symm k) = ix2 k j := funext fun ax => Fin.ext (by
    match ax with
    | ⟨0, _⟩ => exact (u_rhs_row _ _).trans hk
    | ⟨1, _⟩ => exact u_rhs_col _ _)
  rw [el, er]

theorem V_b1 (c : Dev nD) (j : Fin 128) (b1 : S128.Idx → EReal) (u : S1x16.Idx → EReal) (W1 : S272x128.Idx → EReal)
    (hb : b1 = m ((c : Thread nD τ).loc main_arg4)) (hu : u = m ((c : Thread nD τ).loc main_arg2))
    (hW : W1 = m ((c : Thread nD τ).loc main_arg3)) :
    V m c main_v10 (ix2 (0 : Fin 1) j)
      = b1 (ix1 j) + ∑ k : Fin 16, u (ix2 (0 : Fin 1) k) * W1 (ix2 (⟨256 + k.val, by omega⟩ : Fin 272) j) := by
  have e : (V m c main_v10 : S1x128.Idx → EReal)
      = addf (shapeCast S1x128 b1 shapeCasts_S128_S1x128)
          (Host.dotGeneral (F := Ideal) (φ₁ := .f32) (φ₂ := .f32) Du none u
            (extractStridedSlice S16x128 ![256, 0] W1 slices_S272x128_S16x128_256_0)) := by
    subst hb hu hW
    dsimp only [Gen.V, Gen.hostOps0]; after_results; rfl
  rw [e, addf_apply, shapeCast_a_1a_apply, udot_at]
  refine congrArg (_ + ·) (Finset.sum_congr rfl fun k _ => congrArg (_ * ·) ?_)
  exact slice2_axis0_eq 256 _ _ k j

/-! ## The vectors written as one row -/

theorem V_g1 (c : Dev nD) (j : Fin 128) : V m c main_v11 (ix2 (0 : Fin 1) j) = m ((c : Thread nD τ).loc main_arg5) (ix1 j) := by
  have e : (V m c main_v11 : S1x128.Idx → EReal) = shapeCast S1x128 (m ((c : Thread nD τ).loc main_arg5)) shapeCasts_S128_S1x128 := by
    dsimp only [Gen.V, Gen.hostOps0]; after_results; rfl
  rw [e, shapeCast_a_1a_apply]
theorem V_be1 (c : Dev nD) (j : Fin 128) : V m c main_v12 (ix2 (0 : Fin 1) j) = m ((c : Thread nD τ).loc main_arg6) (ix1 j) := by
  have e : (V m c main_v12 : S1x128.Idx → EReal) = shapeCast S1x128 (m ((c : Thread nD τ).loc main_arg6)) shapeCasts_S128_S1x128 := by
    dsimp only [Gen.V, Gen.hostOps0]; after_results; rfl
  rw [e, shapeCast_a_1a_apply]
theorem V_b2 (c : Dev nD) (j : Fin 128) : V m c main_v13 (ix2 (0 : Fin 1) j) = m ((c : Thread nD τ).loc main_arg8) (ix1 j) := by
  have e : (V m c main_v13 : S1x128.Idx → EReal) = shapeCast S1x128 (m ((c : Thread nD τ).loc main_arg8)) shapeCasts_S128_S1x128 := by
    dsimp only [Gen.V, Gen.hostOps0]; after_results; rfl
  rw [e, shapeCast_a_1a_apply]
theorem V_g2 (c : Dev nD) (j : Fin 128) : V m c main_v14 (ix2 (0 : Fin 1) j) = m ((c : Thread nD τ).loc main_arg9) (ix1 j) := by
  have e : (V m c main_v14 : S1x128.Idx → EReal) = shapeCast S1x128 (m ((c : Thread nD τ).loc main_arg9)) shapeCasts_S128_S1x128 := by
    dsimp only [Gen.V, Gen.hostOps0]; after_results; rfl
  rw [e, shapeCast_a_1a_apply]
theorem V_be2 (c : Dev nD) (j : Fin 128) : V m c main_v15 (ix2 (0 : Fin 1) j) = m ((c : Thread nD τ).loc main_arg10) (ix1 j) := by
  have e : (V m c main_v15 : S1x128.Idx → EReal) = shapeCast S1x128 (m ((c : Thread nD τ).loc main_arg10)) shapeCasts_S128_S1x128 := by
    dsimp only [Gen.V, Gen.hostOps0]; after_results; rfl
  rw [e, shapeCast_a_1a_apply]
theorem V_b3 (c : Dev nD) (j : Fin 128) : V m c main_v16 (ix2 (0 : Fin 1) j) = m ((c : Thread nD τ).loc main_arg12) (ix1 j) := by
  have e : (V m c main_v16 : S1x128.Idx → EReal) = shapeCast S1x128 (m ((c : Thread nD τ).loc main_arg12)) shapeCasts_S128_S1x128 := by
    dsimp only [Gen.V, Gen.hostOps0]; after_results; rfl
  rw [e, shapeCast_a_1a_apply]

end Cert.KernelIdeal.KHost

end
-- ==== Proof.KRun.lean ====
/-
  The kernel's run, read: after it the output array is the specification's function of the ARGUMENT arrays. What
  the region finds in each operand is a host function of the arguments (the aggregate; the first matrix's row
  blocks; the first bias with the global features' product folded in; the vectors as single rows), and the split
  first layer over those is the whole first layer over the arguments.
-/
import proofs.«113741_j19851338842522_1_alg».proof.Proof.KValue
import proofs.«113741_j19851338842522_1_alg».proof.Proof.KHost

set_option Elab.async false

noncomputable section

namespace Cert.KernelIdeal.KRun

open Cert.KernelIdeal Cert.KernelIdeal.Gen Cert.KernelIdeal.KFacts Cert.KernelIdeal.KValue Cert.KernelIdeal.KHost
open Idealize.ShloMosaic Idealize.ShloMosaic.TcCoe Idealize.SL.Sem Idealize.ShloMosaic.ValueIdx

variable (m : (ℓ : Loc nD τ sig) → Buf (Elt Ideal) ℓ) (ρ : Dev nD → PrngReg)

/-- The specification's array at (r, q), over any arrays: the row function of row r. -/
theorem out_at (x agg : S100000x128.Idx → EReal) (u : S1x16.Idx → EReal) (W1 : S272x128.Idx → EReal) (b1 g1 be1 : S128.Idx → EReal)
    (W2 : S128x128.Idx → EReal) (b2 g2 be2 : S128.Idx → EReal) (W3 : S128x128.Idx → EReal) (b3 : S128.Idx → EReal)
    (r : Fin 100000) (q : Fin 128) :
    Spec.out x agg u W1 b1 g1 be1 W2 b2 g2 be2 W3 b3 (ix2 r q)
      = Spec.tail
          (Spec.preWhole (fun k => x (ix2 r k)) (fun k => agg (ix2 r k)) (fun k => u (ix2 (0 : Fin 1) k))
            (fun k j => W1 (ix2 k j)) (fun j => b1 (ix1 j)))
          (fun j => g1 (ix1 j)) (fun j => be1 (ix1 j)) (fun k j => W2 (ix2 k j)) (fun j => b2 (ix1 j))
          (fun j => g2 (ix1 j)) (fun j => be2 (ix1 j)) (fun k j => W3 (ix2 k j)) (fun j => b3 (ix1 j)) q := rfl

/-- The array the region leaves, over the argument arrays (named, with their equations to the launch memory). -/
theorem arrOut_eq (c : Dev nD) (X : S100000x128.Idx → EReal) (I : S2x1600000.Idx → BitVec 32) (E : S1600000x128.Idx → EReal)
    (U : S1x16.Idx → EReal) (W1 : S272x128.Idx → EReal) (B1 G1 BE1 : S128.Idx → EReal) (W2 : S128x128.Idx → EReal)
    (B2 G2 BE2 : S128.Idx → EReal) (W3 : S128x128.Idx → EReal) (B3 : S128.Idx → EReal)
    (hX : X = m ((c : Thread nD τ).loc main_arg0)) (hI : I = m ((c : Thread nD τ).loc main_arg13)) (hE : E = m ((c : Thread nD τ).loc main_arg1))
    (hU : U = m ((c : Thread nD τ).loc main_arg2)) (hW1 : W1 = m ((c : Thread nD τ).loc main_arg3)) (hB1 : B1 = m ((c : Thread nD τ).loc main_arg4))
    (hG1 : G1 = m ((c : Thread nD τ).loc main_arg5)) (hBE1 : BE1 = m ((c : Thread nD τ).loc main_arg6)) (hW2 : W2 = m ((c : Thread nD τ).loc main_arg7))
    (hB2 : B2 = m ((c : Thread nD τ).loc main_arg8)) (hG2 : G2 = m ((c : Thread nD τ).loc main_arg9)) (hBE2 : BE2 = m ((c : Thread nD τ).loc main_arg10))
    (hW3 : W3 = m ((c : Thread nD τ).loc main_arg11)) (hB3 : B3 = m ((c : Thread nD τ).loc main_arg12)) :
    arrOut m c = Spec.out X (aggOf I E) U W1 B1 G1 BE1 W2 B2 G2 BE2 W3 B3 := by
  funext i
  obtain ⟨r, q, rfl⟩ : ∃ (r : Fin 100000) (q : Fin 128), i = ix2 r q := ⟨i 0, i 1, eq_ix2 i⟩
  have a0 : (fun k : Fin 128 => V m c main_arg0 (ix2 r k)) = fun k => X (ix2 r k) := by rw [V_main_arg0, hX]
  have a1 : (fun k : Fin 128 => V m c main_v4 (ix2 r k)) = fun k => aggOf I E (ix2 r k) := by rw [V_agg, hI, hE]
  have a2 : (fun k j : Fin 128 => V m c main_v5 (ix2 k j)) = fun k j => W1 (ix2 (⟨0 + k.val, by omega⟩ : Fin 272) j) :=
    funext fun k => funext fun j => by rw [V_w1x, hW1]
  have a3 : (fun k j : Fin 128 => V m c main_v6 (ix2 k j)) = fun k j => W1 (ix2 (⟨128 + k.val, by omega⟩ : Fin 272) j) :=
    funext fun k => funext fun j => by rw [V_w1a, hW1]
  have a4 : (fun j : Fin 128 => V m c main_v10 (ix2 (0 : Fin 1) j))
      = fun j => B1 (ix1 j) + ∑ k : Fin 16, U (ix2 (0 : Fin 1) k) * W1 (ix2 (⟨256 + k.val, by omega⟩ : Fin 272) j) :=
    funext fun j => V_b1 m c j B1 U W1 hB1 hU hW1
  have a5 : (fun j : Fin 128 => V m c main_v11 (ix2 (0 : Fin 1) j)) = fun j => G1 (ix1 j) := funext fun j => by rw [V_g1, hG1]
  have a6 : (fun j : Fin 128 => V m c main_v12 (ix2 (0 : Fin 1) j)) = fun j => BE1 (ix1 j) := funext fun j => by rw [V_be1, hBE1]
  have a7 : (fun k j : Fin 128 => V m c main_arg7 (ix2 k j)) = fun k j => W2 (ix2 k j) := by rw [V_main_arg7, hW2]
  have a8 : (fun j : Fin 128 => V m c main_v13 (ix2 (0 : Fin 1) j)) = fun j => B2 (ix1 j) := funext fun j => by rw [V_b2, hB2]
  have a9 : (fun j : Fin 128 => V m c main_v14 (ix2 (0 : Fin 1) j)) = fun j => G2 (ix1 j) := funext fun j => by rw [V_g2, hG2]
  have a10 : (fun j : Fin 128 => V m c main_v15 (ix2 (0 : Fin 1) j)) = fun j => BE2 (ix1 j) := funext fun j => by rw [V_be2, hBE2]
  have a11 : (fun k j : Fin 128 => V m c main_arg11 (ix2 k j)) = fun k j => W3 (ix2 k j) := by rw [V_main_arg11, hW3]
  have a12 : (fun j : Fin 128 => V m c main_v16 (ix2 (0 : Fin 1) j)) = fun j => B3 (ix1 j) := funext fun j => by rw [V_b3, hB3]
  refine (arrOutOf_at (V m c main_arg0) (V m c main_v4) (V m c main_v5) (V m c main_v6) (V m c main_v10) (V m c main_v11) (V m c main_v12)
    (V m c main_arg7) (V m c main_v13) (V m c main_v14) (V m c main_v15) (V m c main_arg11) (V m c main_v16) r q).trans ?_
  refine Eq.trans ?_ (out_at X (aggOf I E) U W1 B1 G1 BE1 W2 B2 G2 BE2 W3 B3 r q).symm
  refine (row_congr a0 a1 a2 a3 a4 a5 a6 a7 a8 a9 a10 a11 a12 q).trans ?_
  exact congrFun (congrArg (fun h => Spec.tail h (fun j => G1 (ix1 j)) (fun j => BE1 (ix1 j)) (fun k j => W2 (ix2 k j))
      (fun j => B2 (ix1 j)) (fun j => G2 (ix1 j)) (fun j => BE2 (ix1 j)) (fun k j => W3 (ix2 k j)) (fun j => B3 (ix1 j)))
    (Spec.pre_regroup (fun k => X (ix2 r k)) (fun k => aggOf I E (ix2 r k)) (fun k => U (ix2 (0 : Fin 1) k))
      (fun k j => W1 (ix2 k j)) (fun j => B1 (ix1 j)))) q

/-- The kernel's run: every weakly fair execution ends with the result array at the specification's function of
    the argument arrays, the arguments unchanged. -/
theorem run : θ_run defs (onTc (τ := τ) (main (F := Ideal))) ⟨m, fun _ => 0, ρ⟩ fun r => ∀ c : Dev nD,
      r.2.mem ((c : Thread nD τ).loc main_v17)
        = Spec.out (m ((c : Thread nD τ).loc main_arg0)) (aggOf (m ((c : Thread nD τ).loc main_arg13)) (m ((c : Thread nD τ).loc main_arg1)))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
            (m ((c : Thread nD τ).loc main_arg8)) (m ((c : Thread nD τ).loc main_arg9)) (m ((c : Thread nD τ).loc main_arg10))
            (m ((c : Thread nD τ).loc main_arg11)) (m ((c : Thread nD τ).loc main_arg12))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c =>
      ⟨(h c).1.trans ((final m c).trans
        (arrOut_eq m c _ _ _ _ _ _ _ _ _ _ _ _ _ _ rfl rfl rfl rfl rfl rfl rfl rfl rfl rfl rfl rfl rfl rfl)), (h c).2⟩)
    (Cert.KernelIdeal.Value.run_blocks m ρ)

end Cert.KernelIdeal.KRun

end
-- ==== Proof.RefRun.lean ====
/- The reference program's @main as a straight line of its 114 host operations, and its run: every weakly
   fair execution terminates with each TensorCore buffer at the fold of the operations over the launch contents. -/
import proofs.«113741_j19851338842522_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the four calls unfolded at their sites over the calls' buffer records: each
    `relu` is three (the zero, its broadcast, the maximum); each `_var` is twenty — the row mean (sum, broadcast,
    the constant 128 and its broadcast, the quotient), the centred row and its square, the divisor
    `128 - (0 : i32)` converted, the sum of squares over it, the comparison of the divisor with zero — then
    `_where`'s three (the not-a-number constant converted to its own type, broadcast, the select). -/
abbrev ops : List (HloOp τ sig (Elt F)) :=
  [ StableHlo.unary main_arg13 main_v0 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v0 main_v1 rfl shapeCasts_S1x1600000_S1600000,
    StableHlo.nullary main_cst (constant S_ .f32 0x00000000#32),
    StableHlo.unary main_cst main_v2 (broadcastInDim S100000x128 ![] bcast_S_S100000x128 : (⟨S_, .f32⟩ : BufTy).Contents (Elt F) → (⟨S100000x128, .f32⟩ : BufTy).Contents (Elt F)),
    StableHlo.unary main_v1 main_v3 (broadcastInDim S1600000x1 ![0] bcast_S1600000_S1600000x1_0 : (⟨S1600000, .i32⟩ : BufTy).Contents (Elt F) → (⟨S1600000x1, .i32⟩ : BufTy).Contents (Elt F)),
    StableHlo.ternary main_v2 main_v3 main_arg1 main_v4 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg2 main_v5 (broadcastInDim S100000x16 ![0, 1] bcast_S1x16_S100000x16_0_1 : (⟨S1x16, .f32⟩ : BufTy).Contents (Elt F) → (⟨S100000x16, .f32⟩ : BufTy).Contents (Elt F)),
    StableHlo.nary ![main_arg0, main_v4, main_v5] main_v6 (fun u => concatenate S100000x272 1 [⟨S100000x128, u 0⟩, ⟨S100000x128, u 1⟩, ⟨S100000x16, u 2⟩] concatenates_S100000x128_S100000x128_S100000x16_S100000x272_d1),
    StableHlo.binary main_v6 main_arg3 main_v7 ((fun l r => Host.dotGeneral dot_S100000x272_S272x128_S100000x128_1_0_0_1_n_n none l r) : (⟨S100000x272, .f32⟩ : BufTy).Contents (Elt F) → (⟨S272x128, .f32⟩ : BufTy).Contents (Elt F) → (⟨S100000x128, .f32⟩ : BufTy).Contents (Elt F)),
    StableHlo.unary main_arg4 main_v8 (broadcastInDim S1x128 ![1] bcast_S128_S1x128_1 : (⟨S128, .f32⟩ : BufTy).Contents (Elt F) → (⟨S1x128, .f32⟩ : BufTy).Contents (Elt F)),
    StableHlo.unary main_v8 main_v9 (broadcastInDim S100000x128 ![0, 1] bcast_S1x128_S100000x128_0_1 : (⟨S1x128, .f32⟩ : BufTy).Contents (Elt F) → (⟨S100000x128, .f32⟩ : BufTy).Contents (Elt F)),
    StableHlo.binary main_v7 main_v9 main_v10 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v10) main_call0.v0 main_call0.v1 maximumf,
    StableHlo.nullary main_cst_0 (constant S_ .f32 0x00000000#32),
    StableHlo.binary main_v11 main_cst_0 main_v12 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v12 main_v13 (broadcastInDim S100000x1 ![0] bcast_S100000_S100000x1_0 : (⟨S100000, .f32⟩ : BufTy).Contents (Elt F) → (⟨S100000x1, .f32⟩ : BufTy).Contents (Elt F)),
    StableHlo.nullary main_cst_1 (constant S_ .f32 0x43000000#32),
    StableHlo.unary main_cst_1 main_v14 (broadcastInDim S100000x1 ![] bcast_S_S100000x1 : (⟨S_, .f32⟩ : BufTy).Contents (Elt F) → (⟨S100000x1, .f32⟩ : BufTy).Contents (Elt F)),
    StableHlo.binary main_v13 main_v14 main_v15 (Host.divf : (⟨S100000x1, .f32⟩ : BufTy).Contents (Elt F) → (⟨S100000x1, .f32⟩ : BufTy).Contents (Elt F) → (⟨S100000x1, .f32⟩ : BufTy).Contents (Elt F)),
    StableHlo.nullary main_c (constantI S_ 32 0#32),
    StableHlo.TRef.nullary main_call1.cst (constant S_ .f32 0x00000000#32),
    StableHlo.TRef.binary (.of main_v11) main_call1.cst main_call1.v0 (fun x v => Host.reduceAdd x v reducesTo_S100000x128_S100000_d1 h_S_),
    StableHlo.TRef.unary main_call1.v0 main_call1.v1 (broadcastInDim S100000x1 ![0] bcast_S100000_S100000x1_0),
    StableHlo.TRef.nullary main_call1.cst_0 (constant S_ .f32 0x43000000#32),
    StableHlo.TRef.unary main_call1.cst_0 main_call1.v2 (broadcastInDim S100000x1 ![] bcast_S_S100000x1),
    StableHlo.TRef.binary main_call1.v1 main_call1.v2 main_call1.v3 Host.divf,
    StableHlo.TRef.unary main_call1.v3 main_call1.v4 (broadcastInDim S100000x128 ![0, 1] bcast_S100000x1_S100000x128_0_1),
    StableHlo.TRef.binary (.of main_v11) main_call1.v4 main_call1.v5 subf,
    StableHlo.TRef.binary main_call1.v5 main_call1.v5 main_call1.v6 mulf,
    StableHlo.TRef.unary (.of main_c) main_call1.v7 (sitofp .f32),
    StableHlo.TRef.nullary main_call1.cst_1 (constant S_ .f32 0x43000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S100000_d1 h_S_),
    StableHlo.TRef.unary main_call1.v9 main_call1.v10 (broadcastInDim S100000x1 ![0] bcast_S100000_S100000x1_0),
    StableHlo.TRef.unary main_call1.v8 main_call1.v11 (broadcastInDim S100000x1 ![] bcast_S_S100000x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S100000x1 ![] bcast_S_S100000x1),
    StableHlo.TRef.ternary main_call1.v13 main_call1.v12 main_call1.call0.v1 main_call1.call0.v2 (fun p a b => select (broadcastInDim S100000x1 ![] bcast_S_S100000x1 p) a b),
    StableHlo.unary main_v15 main_v17 (broadcastInDim S100000x128 ![0, 1] bcast_S100000x1_S100000x128_0_1 : (⟨S100000x1, .f32⟩ : BufTy).Contents (Elt F) → (⟨S100000x128, .f32⟩ : BufTy).Contents (Elt F)),
    StableHlo.binary main_v11 main_v17 main_v18 (subf : (⟨S100000x128, .f32⟩ : BufTy).Contents (Elt F) → (⟨S100000x128, .f32⟩ : BufTy).Contents (Elt F) → (⟨S100000x128, .f32⟩ : BufTy).Contents (Elt F)),
    StableHlo.nullary main_cst_2 (constant S_ .f32 0x3727C5AC#32),
    StableHlo.unary main_cst_2 main_v19 (broadcastInDim S100000x1 ![] bcast_S_S100000x1 : (⟨S_, .f32⟩ : BufTy).Contents (Elt F) → (⟨S100000x1, .f32⟩ : BufTy).Contents (Elt F)),
    StableHlo.binary main_v16 main_v19 main_v20 (addf : (⟨S100000x1, .f32⟩ : BufTy).Contents (Elt F) → (⟨S100000x1, .f32⟩ : BufTy).Contents (Elt F) → (⟨S100000x1, .f32⟩ : BufTy).Contents (Elt F)),
    StableHlo.unary main_v20 main_v21 (Host.rsqrt : (⟨S100000x1, .f32⟩ : BufTy).Contents (Elt F) → (⟨S100000x1, .f32⟩ : BufTy).Contents (Elt F)),
    StableHlo.unary main_v21 main_v22 (broadcastInDim S100000x128 ![0, 1] bcast_S100000x1_S100000x128_0_1 : (⟨S100000x1, .f32⟩ : BufTy).Contents (Elt F) → (⟨S100000x128, .f32⟩ : BufTy).Contents (Elt F)),
    StableHlo.binary main_v18 main_v22 main_v23 (mulf : (⟨S100000x128, .f32⟩ : BufTy).Contents (Elt F) → (⟨S100000x128, .f32⟩ : BufTy).Contents (Elt F) → (⟨S100000x128, .f32⟩ : BufTy).Contents (Elt F)),
    StableHlo.unary main_arg5 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S100000x128 ![0, 1] bcast_S1x128_S100000x128_0_1 : (⟨S1x128, .f32⟩ : BufTy).Contents (Elt F) → (⟨S100000x128, .f32⟩ : BufTy).Contents (Elt F)),
    StableHlo.binary main_v23 main_v25 main_v26 (mulf : (⟨S100000x128, .f32⟩ : BufTy).Contents (Elt F) → (⟨S100000x128, .f32⟩ : BufTy).Contents (Elt F) → (⟨S100000x128, .f32⟩ : BufTy).Contents (Elt F)),
    StableHlo.unary main_arg6 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S100000x128 ![0, 1] bcast_S1x128_S100000x128_0_1 : (⟨S1x128, .f32⟩ : BufTy).Contents (Elt F) → (⟨S100000x128, .f32⟩ : BufTy).Contents (Elt F)),
    StableHlo.binary main_v26 main_v28 main_v29 (addf : (⟨S100000x128, .f32⟩ : BufTy).Contents (Elt F) → (⟨S100000x128, .f32⟩ : BufTy).Contents (Elt F) → (⟨S100000x128, .f32⟩ : BufTy).Contents (Elt F)),
    StableHlo.binary main_v29 main_arg7 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S100000x128 ![0, 1] bcast_S1x128_S100000x128_0_1 : (⟨S1x128, .f32⟩ : BufTy).Contents (Elt F) → (⟨S100000x128, .f32⟩ : BufTy).Contents (Elt F)),
    StableHlo.binary main_v30 main_v32 main_v33 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v33) main_call2.v0 main_call2.v1 maximumf,
    StableHlo.nullary main_cst_3 (constant S_ .f32 0x00000000#32),
    StableHlo.binary main_v34 main_cst_3 main_v35 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v35 main_v36 (broadcastInDim S100000x1 ![0] bcast_S100000_S100000x1_0 : (⟨S100000, .f32⟩ : BufTy).Contents (Elt F) → (⟨S100000x1, .f32⟩ : BufTy).Contents (Elt F)),
    StableHlo.nullary main_cst_4 (constant S_ .f32 0x43000000#32),
    StableHlo.unary main_cst_4 main_v37 (broadcastInDim S100000x1 ![] bcast_S_S100000x1 : (⟨S_, .f32⟩ : BufTy).Contents (Elt F) → (⟨S100000x1, .f32⟩ : BufTy).Contents (Elt F)),
    StableHlo.binary main_v36 main_v37 main_v38 (Host.divf : (⟨S100000x1, .f32⟩ : BufTy).Contents (Elt F) → (⟨S100000x1, .f32⟩ : BufTy).Contents (Elt F) → (⟨S100000x1, .f32⟩ : BufTy).Contents (Elt F)),
    StableHlo.nullary main_c_5 (constantI S_ 32 0#32),
    StableHlo.TRef.nullary main_call3.cst (constant S_ .f32 0x00000000#32),
    StableHlo.TRef.binary (.of main_v34) main_call3.cst main_call3.v0 (fun x v => Host.reduceAdd x v reducesTo_S100000x128_S100000_d1 h_S_),
    StableHlo.TRef.unary main_call3.v0 main_call3.v1 (broadcastInDim S100000x1 ![0] bcast_S100000_S100000x1_0),
    StableHlo.TRef.nullary main_call3.cst_0 (constant S_ .f32 0x43000000#32),
    StableHlo.TRef.unary main_call3.cst_0 main_call3.v2 (broadcastInDim S100000x1 ![] bcast_S_S100000x1),
    StableHlo.TRef.binary main_call3.v1 main_call3.v2 main_call3.v3 Host.divf,
    StableHlo.TRef.unary main_call3.v3 main_call3.v4 (broadcastInDim S100000x128 ![0, 1] bcast_S100000x1_S100000x128_0_1),
    StableHlo.TRef.binary (.of main_v34) main_call3.v4 main_call3.v5 subf,
    StableHlo.TRef.binary main_call3.v5 main_call3.v5 main_call3.v6 mulf,
    StableHlo.TRef.unary (.of main_c_5) main_call3.v7 (sitofp .f32),
    StableHlo.TRef.nullary main_call3.cst_1 (constant S_ .f32 0x43000000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x128_S100000_d1 h_S_),
    StableHlo.TRef.unary main_call3.v9 main_call3.v10 (broadcastInDim S100000x1 ![0] bcast_S100000_S100000x1_0),
    StableHlo.TRef.unary main_call3.v8 main_call3.v11 (broadcastInDim S100000x1 ![] bcast_S_S100000x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S100000x1 ![] bcast_S_S100000x1),
    StableHlo.TRef.ternary main_call3.v13 main_call3.v12 main_call3.call0.v1 main_call3.call0.v2 (fun p a b => select (broadcastInDim S100000x1 ![] bcast_S_S100000x1 p) a b),
    StableHlo.unary main_v38 main_v40 (broadcastInDim S100000x128 ![0, 1] bcast_S100000x1_S100000x128_0_1 : (⟨S100000x1, .f32⟩ : BufTy).Contents (Elt F) → (⟨S100000x128, .f32⟩ : BufTy).Contents (Elt F)),
    StableHlo.binary main_v34 main_v40 main_v41 (subf : (⟨S100000x128, .f32⟩ : BufTy).Contents (Elt F) → (⟨S100000x128, .f32⟩ : BufTy).Contents (Elt F) → (⟨S100000x128, .f32⟩ : BufTy).Contents (Elt F)),
    StableHlo.nullary main_cst_6 (constant S_ .f32 0x3727C5AC#32),
    StableHlo.unary main_cst_6 main_v42 (broadcastInDim S100000x1 ![] bcast_S_S100000x1 : (⟨S_, .f32⟩ : BufTy).Contents (Elt F) → (⟨S100000x1, .f32⟩ : BufTy).Contents (Elt F)),
    StableHlo.binary main_v39 main_v42 main_v43 (addf : (⟨S100000x1, .f32⟩ : BufTy).Contents (Elt F) → (⟨S100000x1, .f32⟩ : BufTy).Contents (Elt F) → (⟨S100000x1, .f32⟩ : BufTy).Contents (Elt F)),
    StableHlo.unary main_v43 main_v44 (Host.rsqrt : (⟨S100000x1, .f32⟩ : BufTy).Contents (Elt F) → (⟨S100000x1, .f32⟩ : BufTy).Contents (Elt F)),
    StableHlo.unary main_v44 main_v45 (broadcastInDim S100000x128 ![0, 1] bcast_S100000x1_S100000x128_0_1 : (⟨S100000x1, .f32⟩ : BufTy).Contents (Elt F) → (⟨S100000x128, .f32⟩ : BufTy).Contents (Elt F)),
    StableHlo.binary main_v41 main_v45 main_v46 (mulf : (⟨S100000x128, .f32⟩ : BufTy).Contents (Elt F) → (⟨S100000x128, .f32⟩ : BufTy).Contents (Elt F) → (⟨S100000x128, .f32⟩ : BufTy).Contents (Elt F)),
    StableHlo.unary main_arg9 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S100000x128 ![0, 1] bcast_S1x128_S100000x128_0_1 : (⟨S1x128, .f32⟩ : BufTy).Contents (Elt F) → (⟨S100000x128, .f32⟩ : BufTy).Contents (Elt F)),
    StableHlo.binary main_v46 main_v48 main_v49 (mulf : (⟨S100000x128, .f32⟩ : BufTy).Contents (Elt F) → (⟨S100000x128, .f32⟩ : BufTy).Contents (Elt F) → (⟨S100000x128, .f32⟩ : BufTy).Contents (Elt F)),
    StableHlo.unary main_arg10 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S100000x128 ![0, 1] bcast_S1x128_S100000x128_0_1 : (⟨S1x128, .f32⟩ : BufTy).Contents (Elt F) → (⟨S100000x128, .f32⟩ : BufTy).Contents (Elt F)),
    StableHlo.binary main_v49 main_v51 main_v52 (addf : (⟨S100000x128, .f32⟩ : BufTy).Contents (Elt F) → (⟨S100000x128, .f32⟩ : BufTy).Contents (Elt F) → (⟨S100000x128, .f32⟩ : BufTy).Contents (Elt F)),
    StableHlo.binary main_v52 main_arg11 main_v53 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg12 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S100000x128 ![0, 1] bcast_S1x128_S100000x128_0_1 : (⟨S1x128, .f32⟩ : BufTy).Contents (Elt F) → (⟨S100000x128, .f32⟩ : BufTy).Contents (Elt F)),
    StableHlo.binary main_v53 main_v55 main_v56 (addf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 4000000 in
/-- @main is that straight line: the two windows and the functions' definitions unfolded at their calls, both sides
    are one chain of steps once sequencing is re-associated. -/
theorem main_eq (c : Dev nD) : main (F := F) c = seq ops := by
  simp only [main, main_part0, main_part1, fn_relu.body, fn_where.body, fn_var.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., nullary_bufs_sub .., unary_bufs_sub .., unary_bufs_sub .., ternary_bufs_sub ..,
    unary_bufs_sub .., nary_bufs_sub .., binary_bufs_sub .., unary_bufs_sub .., unary_bufs_sub .., binary_bufs_sub ..,
    nullary_bufs_sub .., unary_bufs_sub .., binary_bufs_sub .., nullary_bufs_sub .., binary_bufs_sub .., unary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., unary_bufs_sub .., binary_bufs_sub .., nullary_bufs_sub .., binary_bufs_sub .., nullary_bufs_sub ..,
    unary_bufs_sub .., unary_bufs_sub .., ternary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    unary_bufs_sub .., unary_bufs_sub .., binary_bufs_sub .., nullary_bufs_sub .., unary_bufs_sub .., binary_bufs_sub ..,
    nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Run

end
-- ==== Proof.RefStages.lean ====
/- The reference's value, stage by stage. Each stage is a named array function spelt with the operations the program
   prints; each is then read at one index, at the ideal instance, as the corresponding row function of the shared
   specification (`Cert.Spec`). -/
import proofs.«113741_j19851338842522_1_alg».proof.Proof.Gen.ReferenceIdeal
import proofs.«113741_j19851338842522_1_alg».proof.Proof.Spec
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.ValueIdx

/-! ## The stages, for any float values -/

section Stages
variable {F : FTy → Type} [FloatOps F]

/-- `max · 0`, entry by entry: the maximum with the broadcast zero. -/
def relu (h : FVec F S100000x128 .f32) : FVec F S100000x128 .f32 :=
  maximumf h (broadcastInDim S100000x128 ![] bcast_S_S100000x128 (constant S_ .f32 0x00000000#32))

/-- Each row's sum, from the initial value zero. -/
def rowSum (h : FVec F S100000x128 .f32) : FVec F S100000 .f32 :=
  Host.reduceAdd h (constant S_ .f32 0x00000000#32) reducesTo_S100000x128_S100000_d1 h_S_

/-- Each row's mean, as a column: the row sum over the broadcast constant 128. -/
def rowMean (h : FVec F S100000x128 .f32) : FVec F S100000x1 .f32 :=
  Host.divf (broadcastInDim S100000x1 ![0] bcast_S100000_S100000x1_0 (rowSum h))
    (broadcastInDim S100000x1 ![] bcast_S_S100000x1 (constant S_ .f32 0x43000000#32))

/-- The variance's divisor as the program computes it: `128 - (0 : i32)` converted. -/
def divisor : FVec F S_ .f32 :=
  subf (constant S_ .f32 0x43000000#32) (sitofp .f32 (constantI S_ 32 0#32))

/-- Each row's deviations from its mean. -/
def centred (h : FVec F S100000x128 .f32) : FVec F S100000x128 .f32 :=
  subf h (broadcastInDim S100000x128 ![0, 1] bcast_S100000x1_S100000x128_0_1 (rowMean h))

/-- Each row's variance, as a column: the sum of squared deviations over the divisor where the divisor is positive,
    the not-a-number constant elsewhere. -/
def rowVar (h : FVec F S100000x128 .f32) : FVec F S100000x1 .f32 :=
  select (broadcastInDim S100000x1 ![] bcast_S_S100000x1 (cmpf .ogt (divisor (F := F)) (constant S_ .f32 0x00000000#32)))
    (Host.divf (broadcastInDim S100000x1 ![0] bcast_S100000_S100000x1_0 (rowSum (mulf (centred h) (centred h))))
      (broadcastInDim S100000x1 ![] bcast_S_S100000x1 (divisor (F := F))))
    (broadcastInDim S100000x1 ![] bcast_S_S100000x1 (id (constant S_ .f32 0x7FC00000#32)))

/-- A vector of 128 entries as a row repeated over every node. -/
def rows (g : FVec F S128 .f32) : FVec F S100000x128 .f32 :=
  broadcastInDim S100000x128 ![0, 1] bcast_S1x128_S100000x128_0_1 (broadcastInDim S1x128 ![1] bcast_S128_S1x128_1 g)

/-- The normalised rows, scaled and shifted. -/
def lnorm (h : FVec F S100000x128 .f32) (g be : FVec F S128 .f32) : FVec F S100000x128 .f32 :=
  addf
    (mulf
      (mulf (subf h (broadcastInDim S100000x128 ![0, 1] bcast_S100000x1_S100000x128_0_1 (rowMean h)))
        (broadcastInDim S100000x128 ![0, 1] bcast_S100000x1_S100000x128_0_1
          (Host.rsqrt (addf (rowVar h) (broadcastInDim S100000x1 ![] bcast_S_S100000x1 (constant S_ .f32 0x3727C5AC#32))))))
      (rows g))
    (rows be)

/-- An affine layer on 128-entry rows. -/
def lin2 (h : FVec F S100000x128 .f32) (W : FVec F S128x128 .f32) (b : FVec F S128 .f32) : FVec F S100000x128 .f32 :=
  addf (Host.dotGeneral dot_S100000x128_S128x128_S100000x128_1_0_0_1_n_n none h W) (rows b)

/-- The concatenated rows: own features, aggregated features, the global features repeated. -/
def xcat (x a : FVec F S100000x128 .f32) (u : FVec F S1x16 .f32) : FVec F S100000x272 .f32 :=
  concatenate S100000x272 1
    [⟨S100000x128, x⟩, ⟨S100000x128, a⟩, ⟨S100000x16, broadcastInDim S100000x16 ![0, 1] bcast_S1x16_S100000x16_0_1 u⟩]
    concatenates_S100000x128_S100000x128_S100000x16_S100000x272_d1

/-- The first affine layer, on the concatenated 272-entry rows. -/
def pre1 (x a : FVec F S100000x128 .f32) (u : FVec F S1x16 .f32) (W1 : FVec F S272x128 .f32) (b1 : FVec F S128 .f32) :
    FVec F S100000x128 .f32 :=
  addf (Host.dotGeneral dot_S100000x272_S272x128_S100000x128_1_0_0_1_n_n none (xcat x a u) W1) (rows b1)

/-- The whole value from the argument arrays and the aggregated features. -/
def outStage (x a : FVec F S100000x128 .f32) (u : FVec F S1x16 .f32) (W1 : FVec F S272x128 .f32) (b1 g1 be1 : FVec F S128 .f32)
    (W2 : FVec F S128x128 .f32) (b2 g2 be2 : FVec F S128 .f32) (W3 : FVec F S128x128 .f32) (b3 : FVec F S128 .f32) :
    FVec F S100000x128 .f32 :=
  lin2 (lnorm (relu (lin2 (lnorm (relu (pre1 x a u W1 b1)) g1 be1) W2 b2)) g2 be2) W3 b3

end Stages

/-! ## The stages read at an index, at the ideal instance -/

/-- The word for 128 denotes the real 128. -/
theorem ofBits_128 : Ideal.ofBits .f32 0x43000000#32 = ((128 : ℝ) : EReal) := by
  simp [Ideal.ofBits, Ideal.ieee, -EReal.coe_mul]; norm_num

/-- A column broadcast over the 128 entries of each row reads the column at the row. -/
theorem bcol_apply (c : FVec Ideal S100000x1 .f32) (r : Fin 100000) (j : Fin 128) :
    broadcastInDim S100000x128 ![0, 1] bcast_S100000x1_S100000x128_0_1 c (ix2 r j) = c (ix2 r (0 : Fin 1)) :=
  broadcastInDim_apply _ _ c (ix2 r j) (ix2 r (0 : Fin 1)) fun a => by
    match a with
    | ⟨0, _⟩ => exact (if_neg (show ¬((100000 : ℕ) = 1) by decide)).symm
    | ⟨1, _⟩ => exact (if_pos rfl).symm

/-- A 128-vector repeated over every node reads the vector at the column. -/
theorem rows_apply (g : FVec Ideal S128 .f32) (r : Fin 100000) (j : Fin 128) : rows g (ix2 r j) = g (ix1 j) := by
  unfold rows
  refine (broadcastInDim_apply _ _ _ (ix2 r j) (ix2 (0 : Fin 1) j) fun a => ?_).trans
    (broadcastInDim_apply _ _ g (ix2 (0 : Fin 1) j) (ix1 j) fun a => ?_)
  · match a with
    | ⟨0, _⟩ => exact (if_pos rfl).symm
    | ⟨1, _⟩ => exact (if_neg (show ¬((128 : ℕ) = 1) by decide)).symm
  · match a with
    | ⟨0, _⟩ => exact (if_neg (show ¬((128 : ℕ) = 1) by decide)).symm

theorem relu_apply (h : FVec Ideal S100000x128 .f32) (i : S100000x128.Idx) : relu h i = max (h i) Cert.Spec.w0 := by
  unfold relu
  rw [maximumf_apply, broadcastInDim_scalar_apply, constant_apply]

theorem rowSum_apply (h : FVec Ideal S100000x128 .f32) (r : Fin 100000) :
    rowSum h (ix1 r) = ∑ q : Fin 128, h (ix2 r q) := by
  unfold rowSum
  rw [hostReduceAdd_apply, Ideal.hostReduceAdd_single reducesTo_S100000x128_S100000_d1 (by decide), constant_apply,
    Ideal.ofBits_zero_f32, zero_add]
  refine Finset.sum_congr rfl fun q _ => congrArg h (funext fun a => ?_)
  match a with
  | ⟨0, _⟩ => rfl
  | ⟨1, _⟩ => rfl

/-- A vector of one entry per node, as a column, reads the vector at the node. -/
theorem col_apply (v : FVec Ideal S100000 .f32) (r : Fin 100000) :
    broadcastInDim S100000x1 ![0] bcast_S100000_S100000x1_0 v (ix2 r (0 : Fin 1)) = v (ix1 r) :=
  broadcastInDim_apply _ _ v (ix2 r (0 : Fin 1)) (ix1 r) fun a => by
    match a with
    | ⟨0, _⟩ => exact (if_neg (show ¬((100000 : ℕ) = 1) by decide)).symm

theorem rowMean_apply (h : FVec Ideal S100000x128 .f32) (r : Fin 100000) :
    rowMean h (ix2 r (0 : Fin 1)) = Cert.Spec.mean fun q => h (ix2 r q) := by
  unfold rowMean Cert.Spec.mean
  rw [hostDivf_apply, col_apply, rowSum_apply, broadcastInDim_scalar_apply, constant_apply]

/-- The divisor `128 - (0 : i32)` is the word for 128: the integer zero converts to the real zero. -/
theorem divisor_apply : divisor (F := Ideal) ix0 = Cert.Spec.w128 := by
  unfold divisor
  rw [subf_apply, constant_apply, sitofp_apply]
  show Ideal.ofBits .f32 0x43000000#32 - (((0#32 : BitVec 32).toInt : ℝ) : EReal) = _
  rw [show ((0#32 : BitVec 32).toInt) = 0 by decide, Int.cast_zero, EReal.coe_zero, sub_zero]

/-- The divisor is positive, so the comparison's bit is one. -/
theorem divisor_pos_bit :
    cmpf .ogt (divisor (F := Ideal)) (constant (F := Ideal) S_ .f32 0x00000000#32) ix0 = 1#1 := by
  rw [cmpf_apply, divisor_apply, constant_apply, Ideal.cmpf_def, Ideal.ofBits_zero_f32]
  show BitVec.ofBool (decide ((0 : EReal) < Cert.Spec.w128)) = 1#1
  rw [show Cert.Spec.w128 = ((128 : ℝ) : EReal) from ofBits_128, decide_eq_true (by exact_mod_cast (by norm_num : (0 : ℝ) < 128))]
  rfl

theorem centred_apply (h : FVec Ideal S100000x128 .f32) (r : Fin 100000) (q : Fin 128) :
    centred h (ix2 r q) = h (ix2 r q) - Cert.Spec.mean fun q => h (ix2 r q) := by
  unfold centred
  rw [subf_apply, bcol_apply, rowMean_apply]

/-- The variance column at a node is the specification's variance of the node's row: the select takes its first
    branch, and the divisor is the word for 128. -/
theorem rowVar_apply (h : FVec Ideal S100000x128 .f32) (r : Fin 100000) :
    rowVar h (ix2 r (0 : Fin 1)) = Cert.Spec.var fun q => h (ix2 r q) := by
  unfold rowVar Cert.Spec.var
  rw [select_apply,
    broadcastInDim_scalar_apply _ (cmpf .ogt (divisor (F := Ideal)) (constant (F := Ideal) S_ .f32 0x00000000#32)),
    divisor_pos_bit, select_one, hostDivf_apply, col_apply, rowSum_apply,
    broadcastInDim_scalar_apply _ (divisor (F := Ideal)), divisor_apply]
  refine congrArg (Ideal.div · Cert.Spec.w128) (Finset.sum_congr rfl fun q _ => ?_)
  rw [mulf_apply, centred_apply]

/-- The host's reciprocal square root at an index is the ideal instance's of the element. -/
theorem hostRsqrt_apply {s : Shape} (x : FVec Ideal s .f32) (i : s.Idx) : Host.rsqrt x i = Ideal.rsqrt (x i) := rfl

theorem lnorm_apply (h : FVec Ideal S100000x128 .f32) (g be : FVec Ideal S128 .f32) (r : Fin 100000) (j : Fin 128) :
    lnorm h g be (ix2 r j)
      = Cert.Spec.norm (fun q => h (ix2 r q)) (fun q => g (ix1 q)) (fun q => be (ix1 q)) j := by
  unfold lnorm Cert.Spec.norm
  rw [addf_apply, mulf_apply, mulf_apply, subf_apply, bcol_apply, bcol_apply, rows_apply, rows_apply, rowMean_apply,
    hostRsqrt_apply, addf_apply, rowVar_apply, broadcastInDim_scalar_apply, constant_apply]

/-! ### The two contractions -/

/-- The dimension numbers of the 128 × 128 layers and of the first, 272 × 128, layer. -/
abbrev D2 := dot_S100000x128_S128x128_S100000x128_1_0_0_1_n_n
abbrev D1 := dot_S100000x272_S272x128_S100000x128_1_0_0_1_n_n

theorem lhs2_0 (i : S100000x128.Idx) (q : D2.contr.Idx) : (D2.lhsIdx i q 0).val = (i 0).val := by
  unfold DotDims.lhsIdx
  rw [dif_neg (show ¬(0 : Fin S100000x128.rank) ∈ D2.lhsBatch by decide),
    dif_pos (show (0 : Fin S100000x128.rank) ∈ D2.lhsNonContracting by decide)]
  rfl
theorem lhs2_1 (i : S100000x128.Idx) (q : D2.contr.Idx) : (D2.lhsIdx i q 1).val = (q ⟨0, by decide⟩).val :=
  D2.lhsIdx_val_of_single rfl i q
theorem rhs2_0 (i : S100000x128.Idx) (q : D2.contr.Idx) : (D2.rhsIdx i q 0).val = (q ⟨0, by decide⟩).val :=
  D2.rhsIdx_val_of_single rfl i q
theorem rhs2_1 (i : S100000x128.Idx) (q : D2.contr.Idx) : (D2.rhsIdx i q 1).val = (i 1).val := by
  unfold DotDims.rhsIdx
  rw [dif_neg (show ¬(1 : Fin S128x128.rank) ∈ D2.rhsBatch by decide),
    dif_pos (show (1 : Fin S128x128.rank) ∈ D2.rhsNonContracting by decide)]
  rfl

/-- A 128 × 128 layer's product at (node, column): the sum over the 128 contracted positions. -/
theorem dot2_apply (h : FVec Ideal S100000x128 .f32) (W : FVec Ideal S128x128 .f32) (r : Fin 100000) (j : Fin 128) :
    Host.dotGeneral D2 none h W (ix2 r j) = ∑ k : Fin 128, h (ix2 r k) * W (ix2 k j) := by
  simp only [Host.dotGeneral]
  rw [Ideal.dotGeneral_apply, ← Equiv.sum_comp (ValueIdx.contrEquiv1 D2 128 rfl rfl).symm]
  refine Finset.sum_congr rfl fun k _ => ?_
  have hk := ValueIdx.contrEquiv1_symm_val D2 128 rfl rfl k
  have el : D2.lhsIdx (ix2 r j) ((ValueIdx.contrEquiv1 D2 128 rfl rfl).symm k) = ix2 r k := funext fun a => Fin.ext (by
    match a with
    | ⟨0, _⟩ => exact lhs2_0 _ _
    | ⟨1, _⟩ => exact (lhs2_1 _ _).trans hk)
  have er : D2.rhsIdx (ix2 r j) ((ValueIdx.contrEquiv1 D2 128 rfl rfl).symm k) = ix2 k j := funext fun a => Fin.ext (by
    match a with
    | ⟨0, _⟩ => exact (rhs2_0 _ _).trans hk
    | ⟨1, _⟩ => exact rhs2_1 _ _)
  rw [el, er]

theorem lhs1_0 (i : S100000x128.Idx) (q : D1.contr.Idx) : (D1.lhsIdx i q 0).val = (i 0).val := by
  unfold DotDims.lhsIdx
  rw [dif_neg (show ¬(0 : Fin S100000x272.rank) ∈ D1.lhsBatch by decide),
    dif_pos (show (0 : Fin S100000x272.rank) ∈ D1.lhsNonContracting by decide)]
  rfl
theorem lhs1_1 (i : S100000x128.Idx) (q : D1.contr.Idx) : (D1.lhsIdx i q 1).val = (q ⟨0, by decide⟩).val :=
  D1.lhsIdx_val_of_single rfl i q
theorem rhs1_0 (i : S100000x128.Idx) (q : D1.contr.Idx) : (D1.rhsIdx i q 0).val = (q ⟨0, by decide⟩).val :=
  D1.rhsIdx_val_of_single rfl i q
theorem rhs1_1 (i : S100000x128.Idx) (q : D1.contr.Idx) : (D1.rhsIdx i q 1).val = (i 1).val := by
  unfold DotDims.rhsIdx
  rw [dif_neg (show ¬(1 : Fin S272x128.rank) ∈ D1.rhsBatch by decide),
    dif_pos (show (1 : Fin S272x128.rank) ∈ D1.rhsNonContracting by decide)]
  rfl

/-- The first layer's product at (node, column): the sum over the 272 contracted positions. -/
theorem dot1_apply (h : FVec Ideal S100000x272 .f32) (W : FVec Ideal S272x128 .f32) (r : Fin 100000) (j : Fin 128) :
    Host.dotGeneral D1 none h W (ix2 r j) = ∑ k : Fin 272, h (ix2 r k) * W (ix2 k j) := by
  simp only [Host.dotGeneral]
  rw [Ideal.dotGeneral_apply, ← Equiv.sum_comp (ValueIdx.contrEquiv1 D1 272 rfl rfl).symm]
  refine Finset.sum_congr rfl fun k _ => ?_
  have hk := ValueIdx.contrEquiv1_symm_val D1 272 rfl rfl k
  have el : D1.lhsIdx (ix2 r j) ((ValueIdx.contrEquiv1 D1 272 rfl rfl).symm k) = ix2 r k := funext fun a => Fin.ext (by
    match a with
    | ⟨0, _⟩ => exact lhs1_0 _ _
    | ⟨1, _⟩ => exact (lhs1_1 _ _).trans hk)
  have er : D1.rhsIdx (ix2 r j) ((ValueIdx.contrEquiv1 D1 272 rfl rfl).symm k) = ix2 k j := funext fun a => Fin.ext (by
    match a with
    | ⟨0, _⟩ => exact (rhs1_0 _ _).trans hk
    | ⟨1, _⟩ => exact rhs1_1 _ _)
  rw [el, er]

theorem lin2_apply (h : FVec Ideal S100000x128 .f32) (W : FVec Ideal S128x128 .f32) (b : FVec Ideal S128 .f32)
    (r : Fin 100000) (j : Fin 128) :
    lin2 h W b (ix2 r j)
      = Cert.Spec.lin (fun k => h (ix2 r k)) (fun k j => W (ix2 k j)) (fun j => b (ix1 j)) j := by
  unfold lin2 Cert.Spec.lin
  rw [addf_apply, rows_apply, dot2_apply]

/-! ### The first layer -/

/-- The concatenated row at a node is the specification's concatenation of the node's three rows: each position is read
    in the piece whose span holds it. -/
theorem xcat_apply (x a : FVec Ideal S100000x128 .f32) (u : FVec Ideal S1x16 .f32) (r : Fin 100000) (k : Fin 272) :
    xcat x a u (ix2 r k)
      = Cert.Spec.cat (fun q => x (ix2 r q)) (fun q => a (ix2 r q)) (fun q => u (ix2 (0 : Fin 1) q)) k := by
  unfold xcat Cert.Spec.cat
  by_cases h1 : k.val < 128
  · rw [dif_pos h1]
    exact concatenate_apply_piece (1 : Fin S100000x272.rank) _ _ (ix2 r k) 0 (by show (0 : ℕ) < 3; decide) S100000x128 x rfl rfl 0 rfl
      (ix2 r ⟨k.val, h1⟩)
      (fun b hb => by
        match b with
        | ⟨0, _⟩ => rfl
        | ⟨1, _⟩ => exact absurd rfl hb)
      (by show 0 + k.val = k.val; omega)
  · rw [dif_neg h1]
    by_cases h2 : k.val < 256
    · rw [dif_pos h2]
      exact concatenate_apply_piece (1 : Fin S100000x272.rank) _ _ (ix2 r k) 1 (by show (1 : ℕ) < 3; decide) S100000x128 a rfl rfl 128 rfl
        (ix2 r ⟨k.val - 128, by omega⟩)
        (fun b hb => by
          match b with
          | ⟨0, _⟩ => rfl
          | ⟨1, _⟩ => exact absurd rfl hb)
        (by show 128 + (k.val - 128) = k.val; omega)
    · rw [dif_neg h2]
      have hk : k.val - 256 < 16 := by have := k.isLt; omega
      refine (concatenate_apply_piece (1 : Fin S100000x272.rank) _ _ (ix2 r k) 2 (by show (2 : ℕ) < 3; decide) S100000x16 _ rfl rfl 256 rfl
        (ix2 r ⟨k.val - 256, hk⟩)
        (fun b hb => by
          match b with
          | ⟨0, _⟩ => rfl
          | ⟨1, _⟩ => exact absurd rfl hb)
        (by show 256 + (k.val - 256) = k.val; omega)).trans ?_
      exact broadcastInDim_apply _ _ u (ix2 r ⟨k.val - 256, hk⟩) (ix2 (0 : Fin 1) ⟨k.val - 256, hk⟩) fun a => by
        match a with
        | ⟨0, _⟩ => exact (if_pos rfl).symm
        | ⟨1, _⟩ => exact (if_neg (show ¬((16 : ℕ) = 1) by decide)).symm

theorem pre1_apply (x a : FVec Ideal S100000x128 .f32) (u : FVec Ideal S1x16 .f32) (W1 : FVec Ideal S272x128 .f32)
    (b1 : FVec Ideal S128 .f32) (r : Fin 100000) (j : Fin 128) :
    pre1 x a u W1 b1 (ix2 r j)
      = Cert.Spec.preWhole (fun q => x (ix2 r q)) (fun q => a (ix2 r q)) (fun q => u (ix2 (0 : Fin 1) q))
          (fun k j => W1 (ix2 k j)) (fun j => b1 (ix1 j)) j := by
  unfold pre1 Cert.Spec.preWhole
  rw [addf_apply, rows_apply, dot1_apply]
  refine congrArg (· + b1 (ix1 j)) (Finset.sum_congr rfl fun k _ => ?_)
  rw [xcat_apply]

/-! ### The whole value -/

theorem relu_row (h : FVec Ideal S100000x128 .f32) (r : Fin 100000) :
    (fun j : Fin 128 => relu h (ix2 r j)) = Cert.Spec.relu fun q => h (ix2 r q) :=
  funext fun j => relu_apply h (ix2 r j)

theorem lnorm_row (h : FVec Ideal S100000x128 .f32) (g be : FVec Ideal S128 .f32) (r : Fin 100000) :
    (fun j : Fin 128 => lnorm h g be (ix2 r j))
      = Cert.Spec.norm (fun q => h (ix2 r q)) (fun q => g (ix1 q)) (fun q => be (ix1 q)) :=
  funext fun j => lnorm_apply h g be r j

theorem lin2_row (h : FVec Ideal S100000x128 .f32) (W : FVec Ideal S128x128 .f32) (b : FVec Ideal S128 .f32) (r : Fin 100000) :
    (fun j : Fin 128 => lin2 h W b (ix2 r j))
      = Cert.Spec.lin (fun k => h (ix2 r k)) (fun k j => W (ix2 k j)) (fun j => b (ix1 j)) :=
  funext fun j => lin2_apply h W b r j

theorem pre1_row (x a : FVec Ideal S100000x128 .f32) (u : FVec Ideal S1x16 .f32) (W1 : FVec Ideal S272x128 .f32)
    (b1 : FVec Ideal S128 .f32) (r : Fin 100000) :
    (fun j : Fin 128 => pre1 x a u W1 b1 (ix2 r j))
      = Cert.Spec.preWhole (fun q => x (ix2 r q)) (fun q => a (ix2 r q)) (fun q => u (ix2 (0 : Fin 1) q))
          (fun k j => W1 (ix2 k j)) (fun j => b1 (ix1 j)) :=
  funext fun j => pre1_apply x a u W1 b1 r j

/-- The staged value is the specification's output array. -/
theorem outStage_eq (x a : FVec Ideal S100000x128 .f32) (u : FVec Ideal S1x16 .f32) (W1 : FVec Ideal S272x128 .f32)
    (b1 g1 be1 : FVec Ideal S128 .f32) (W2 : FVec Ideal S128x128 .f32) (b2 g2 be2 : FVec Ideal S128 .f32)
    (W3 : FVec Ideal S128x128 .f32) (b3 : FVec Ideal S128 .f32) :
    outStage x a u W1 b1 g1 be1 W2 b2 g2 be2 W3 b3 = Cert.Spec.out x a u W1 b1 g1 be1 W2 b2 g2 be2 W3 b3 := by
  funext i
  obtain ⟨r, j, rfl⟩ : ∃ (r : Fin 100000) (j : Fin 128), i = ix2 r j := ⟨i 0, i 1, eq_ix2 i⟩
  show outStage x a u W1 b1 g1 be1 W2 b2 g2 be2 W3 b3 (ix2 r j)
    = Cert.Spec.tail
        (Cert.Spec.preWhole (fun k => x (ix2 r k)) (fun k => a (ix2 r k)) (fun k => u (ix2 (0 : Fin 1) k))
          (fun k j => W1 (ix2 k j)) (fun j => b1 (ix1 j)))
        (fun j => g1 (ix1 j)) (fun j => be1 (ix1 j)) (fun k j => W2 (ix2 k j)) (fun j => b2 (ix1 j))
        (fun j => g2 (ix1 j)) (fun j => be2 (ix1 j)) (fun k j => W3 (ix2 k j)) (fun j => b3 (ix1 j)) j
  unfold outStage Cert.Spec.tail
  rw [lin2_apply, lnorm_row, relu_row, lin2_row, lnorm_row, relu_row, pre1_row]

end Cert.ReferenceIdeal.RefValue

end
-- ==== Proof.RefValue.lean ====
/- The reference's result array as a function of the argument arrays: the fold of @main's operations at the result
   buffer is the staged value (`outStage`), which is the shared specification's output array (`Cert.Spec.out`) index by
   index; the aggregated edge features enter as the scatter term over the edge index table and the edge features. -/
import proofs.«113741_j19851338842522_1_alg».proof.Proof.RefRun
import proofs.«113741_j19851338842522_1_alg».proof.Proof.RefStages

noncomputable section

namespace Cert.ReferenceIdeal.RefValue

open Cert.ReferenceIdeal Cert.ReferenceIdeal.Gen Cert.ReferenceIdeal.Run Idealize.ShloMosaic Idealize.ShloMosaic.TcCoe
  Idealize.SL.Sem Idealize.ShloMosaic.StableHlo

/-! ## The fold at the result buffer and at the arguments, for any float values -/

section Fold
variable {F : FTy → Type} [FloatOps F]

attribute [local irreducible] Host.scatterAdd Host.reduceAdd in
set_option maxRecDepth 16384 in
set_option maxHeartbeats 4000000 in
/-- The fold at the result buffer is the staged value of the arguments' contents, the aggregated features being what the
    fold leaves at the scatter's buffer. The equation holds whatever the sums, the scatter and the products are: it
    uses only which operation feeds which. -/
theorem out_eq (V : Valuation τ sig (Elt F)) :
    after (ops (F := F)) V (main_v56 : DevRef τ sig)
      = outStage (V (main_arg0 : DevRef τ sig)) (after (ops (F := F)) V (main_v4 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig))
          (V (main_arg12 : DevRef τ sig)) := by
  after_results_simp
  rfl

theorem arg0_eq (V : Valuation τ sig (Elt F)) :
    after (ops (F := F)) V (main_arg0 : DevRef τ sig) = V (main_arg0 : DevRef τ sig) := by
  after_results_simp

theorem arg1_eq (V : Valuation τ sig (Elt F)) :
    after (ops (F := F)) V (main_arg1 : DevRef τ sig) = V (main_arg1 : DevRef τ sig) := by
  after_results_simp

theorem arg2_eq (V : Valuation τ sig (Elt F)) :
    after (ops (F := F)) V (main_arg2 : DevRef τ sig) = V (main_arg2 : DevRef τ sig) := by
  after_results_simp

theorem arg3_eq (V : Valuation τ sig (Elt F)) :
    after (ops (F := F)) V (main_arg3 : DevRef τ sig) = V (main_arg3 : DevRef τ sig) := by
  after_results_simp

theorem arg4_eq (V : Valuation τ sig (Elt F)) :
    after (ops (F := F)) V (main_arg4 : DevRef τ sig) = V (main_arg4 : DevRef τ sig) := by
  after_results_simp

theorem arg5_eq (V : Valuation τ sig (Elt F)) :
    after (ops (F := F)) V (main_arg5 : DevRef τ sig) = V (main_arg5 : DevRef τ sig) := by
  after_results_simp

theorem arg6_eq (V : Valuation τ sig (Elt F)) :
    after (ops (F := F)) V (main_arg6 : DevRef τ sig) = V (main_arg6 : DevRef τ sig) := by
  after_results_simp

theorem arg7_eq (V : Valuation τ sig (Elt F)) :
    after (ops (F := F)) V (main_arg7 : DevRef τ sig) = V (main_arg7 : DevRef τ sig) := by
  after_results_simp

theorem arg8_eq (V : Valuation τ sig (Elt F)) :
    after (ops (F := F)) V (main_arg8 : DevRef τ sig) = V (main_arg8 : DevRef τ sig) := by
  after_results_simp

theorem arg9_eq (V : Valuation τ sig (Elt F)) :
    after (ops (F := F)) V (main_arg9 : DevRef τ sig) = V (main_arg9 : DevRef τ sig) := by
  after_results_simp

theorem arg10_eq (V : Valuation τ sig (Elt F)) :
    after (ops (F := F)) V (main_arg10 : DevRef τ sig) = V (main_arg10 : DevRef τ sig) := by
  after_results_simp

theorem arg11_eq (V : Valuation τ sig (Elt F)) :
    after (ops (F := F)) V (main_arg11 : DevRef τ sig) = V (main_arg11 : DevRef τ sig) := by
  after_results_simp

theorem arg12_eq (V : Valuation τ sig (Elt F)) :
    after (ops (F := F)) V (main_arg12 : DevRef τ sig) = V (main_arg12 : DevRef τ sig) := by
  after_results_simp

theorem arg13_eq (V : Valuation τ sig (Elt F)) :
    after (ops (F := F)) V (main_arg13 : DevRef τ sig) = V (main_arg13 : DevRef τ sig) := by
  after_results_simp

theorem arg14_eq (V : Valuation τ sig (Elt F)) :
    after (ops (F := F)) V (main_arg14 : DevRef τ sig) = V (main_arg14 : DevRef τ sig) := by
  after_results_simp

end Fold

/-! ## At the ideal instance -/

/-- The aggregated edge features: the accumulating scatter, into the zero array, of the edge features at the second row
    of the edge index table (sliced, flattened, made a column of one-entry index vectors). -/
def agg (m : (ℓ : Loc nD τ sig) → Buf (Elt Ideal) ℓ) (c : Dev nD) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 fun i =>
      shapeCast main_v1.ty.shape
        (extractStridedSlice S1x1600000 ![1, 0] (m ((c.tc : Thread nD τ).loc main_arg13)) slices_S2x1600000_S1x1600000_1_0)
        shapeCasts_S1x1600000_S1600000 i)
    (m ((c.tc : Thread nD τ).loc main_arg1))

set_option maxRecDepth 8192 in
/-- The fold leaves exactly that term at the scatter's buffer. -/
theorem v4_eq (m : (ℓ : Loc nD τ sig) → Buf (Elt Ideal) ℓ) (c : Dev nD) :
    after (ops (F := Ideal)) (launchContents m c) (main_v4 : DevRef τ sig) = agg m c := by
  unfold agg
  after_results_simp

/-- At the compiled mesh, at the ideal instance, from any memory with zero counters: every weakly fair execution of @main
    terminates with the result buffer at the specification's output array of the arguments and the aggregated features,
    and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v56) = Cert.Spec.out (m ((c.tc : Thread nD τ).loc main_arg0)) (agg m c) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c =>
    ⟨(h c main_v56).trans ((out_eq (launchContents m c)).trans (by rw [v4_eq]; exact outStage_eq _ _ _ _ _ _ _ _ _ _ _ _ _)),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _)⟩)
    (run_main m ρ)

end Cert.ReferenceIdeal.RefValue

end
-- ==== Proof.lean ====
/-
  A node update of a graph network, proved equal to its reference over the extended reals.

  For each of 100000 nodes both programs add up the 128 features of every edge arriving at the node, place them
  beside the node's own 128 features and 16 global features, and send that row of 272 through three affine layers;
  after each of the first two the row is clipped below at 0 and normalised: the row's mean is subtracted, the result
  is multiplied by the reciprocal square root of the row's variance plus a small constant, scaled and shifted. One
  program works on blocks of 5000 nodes at 20 grid points and splits the first layer — the node's features into the
  first 128 rows of the weight matrix, the aggregated features into the next 128, and the global features' product with
  the last 16 rows folded into the bias beforehand. The other program multiplies the whole row of 272 into the whole
  matrix, and takes the variance with a divisor written `128 − 0` under a guard `128 − 0 > 0`.

  At the ideal values every float operation is the exact one and a change of float format is the identity, so both
  programs compute the same function of the argument arrays, `Cert.Spec.out`: the split first layer is the whole one
  with its 272 products regrouped (addition on the extended reals is commutative and associative, and nothing else is
  used, so no input needs to be finite), `128 − 0` is `128`, and the guard holds. The sum over incoming edges is the
  same term of the same two argument arrays in both programs, and the proof uses nothing else about it.

  The three frames: the two kernels' are the generated frame certificates; the reference has no kernel, and its frame
  is its run with the result dropped. The idealisation rewrote no operation, so `preserves` has nothing to state.
-/
import proofs.«113741_j19851338842522_1_alg».proof.Defs
import proofs.«113741_j19851338842522_1_alg».proof.Proof.Gen.Kernel
import proofs.«113741_j19851338842522_1_alg».proof.Proof.Gen.Kernel.Skeleton
import proofs.«113741_j19851338842522_1_alg».proof.Proof.Gen.Kernel.Launch
import proofs.«113741_j19851338842522_1_alg».proof.Proof.Gen.Kernel.Points
import proofs.«113741_j19851338842522_1_alg».proof.Proof.Gen.Kernel.Frame
import proofs.«113741_j19851338842522_1_alg».proof.Proof.Gen.KernelIdeal
import proofs.«113741_j19851338842522_1_alg».proof.Proof.Gen.KernelIdeal.Skeleton
import proofs.«113741_j19851338842522_1_alg».proof.Proof.Gen.KernelIdeal.Launch
import proofs.«113741_j19851338842522_1_alg».proof.Proof.Gen.KernelIdeal.Points
import proofs.«113741_j19851338842522_1_alg».proof.Proof.Gen.KernelIdeal.Frame
import proofs.«113741_j19851338842522_1_alg».proof.Proof.Gen.KernelIdeal.Value
import proofs.«113741_j19851338842522_1_alg».proof.Proof.Gen.ReferenceIdeal
import proofs.«113741_j19851338842522_1_alg».proof.Proof.Gen.Pre_finite_inputs
import proofs.«113741_j19851338842522_1_alg».proof.Proof.KRun
import proofs.«113741_j19851338842522_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- The idealisation rewrote no operation. -/
theorem preserves : Cert.preserves_Kernel_KernelIdeal := trivial

/-- The two programs form the aggregated edge features by the same host operations of the same two arrays. -/
theorem agg_eq (m' : (ℓ : Loc Cert.ReferenceIdeal.nD Cert.ReferenceIdeal.τ Cert.ReferenceIdeal.sig) → Buf (Elt Ideal) ℓ)
    (c : Dev Cert.ReferenceIdeal.nD) :
    Cert.ReferenceIdeal.RefValue.agg m' c
      = Cert.KernelIdeal.KHost.aggOf
          (m' ((c.tc : Thread Cert.ReferenceIdeal.nD Cert.ReferenceIdeal.τ).loc Cert.ReferenceIdeal.main_arg13))
          (m' ((c.tc : Thread Cert.ReferenceIdeal.nD Cert.ReferenceIdeal.τ).loc Cert.ReferenceIdeal.main_arg1)) := rfl

/-- From memories that agree on the arguments both runs end with the result at `Cert.Spec.out` of the arguments. -/
theorem algebraic : Cert.algebraic_KernelIdeal_ReferenceIdeal := by
  intro m ρ m' ρ' _ hagree
  refine ⟨_, Cert.KernelIdeal.KRun.run m ρ, ?_⟩
  refine (θ_run Cert.ReferenceIdeal.defs _ _).mono (fun r h c => ⟨(h c).1.trans ?_, (h c).2⟩)
    (Cert.ReferenceIdeal.RefValue.run m' ρ')
  obtain ⟨h0, h1, h2, h3, h4, h5, h6, h7, h8, h9, h10, h11, h12, h13, h14⟩ := hagree c
  rw [agg_eq, h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
